-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg1 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x00000000#32
  let main_v22 : FVec F S8192 .f32 := broadcastInDim S8192 ![] bcast_S_S8192 main_cst_6
  let main_v23 : IVec S8192 1 := cmpf .ogt main_v21 main_v22
  let main_c_7 : IVec S_ 1 := constantI S_ 1 1#1
  let main_v24 : IVec S_ 1 := (fun x v => Host.reduce IntOp.andi x v reducesTo_S8192_S_d0 h_S_) main_v23 main_c_7
  let main_v25 : IVec S_ 1 := andi main_v13 main_v24
  main_v25

def fn {F : FTy → Type} [FloatOps F] (main_arg0 : FVec F S8192x512 .f32) (main_arg1 : FVec F S8192x8192 .f32) (main_arg2 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg1 main_v13 main_v14 main_v15 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S1024x512 : Shape := ⟨2, ![1024, 512]⟩
abbrev S1024x1 : Shape := ⟨2, ![1024, 1]⟩

abbrev nBuf : Space → Nat
  | .hbm => 6
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S8192x1, .f32⟩
  | .hbm, ⟨4, _⟩ => ⟨S8192x512, .bf16⟩
  | .hbm, ⟨5, _⟩ => ⟨S8192x512, .f32⟩
  | .local _ .vmem, ⟨0, _⟩ => ⟨S512x8192, .f32⟩
  | .local _ .vmem, ⟨1, _⟩ => ⟨S512x8192, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S512x512, .bf16⟩
  | .local _ .vmem, ⟨7, _⟩ => ⟨S512x512, .bf16⟩
  | .local _ .vmem, ⟨8, _⟩ => ⟨S1024x512, .f32⟩
  | .local _ .vmem, ⟨9, _⟩ => ⟨S1024x512, .f32⟩
  | .local _ .vmem, ⟨10, _⟩ => ⟨S8192x512, .bf16⟩
  | .local _ .vmem, ⟨11, _⟩ => ⟨S1024x1, .f32⟩
  | .local _ .vmem, ⟨12, _⟩ => ⟨S1024x1, .f32⟩
  | .local _ .vmem, ⟨13, _⟩ => ⟨S512x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_mult1 (i : grid1.Coords) : BitVec 32 :=
  let arg0 : BitVec 32 := BitVec.ofNat 32 (i 0).val
  let c1024_i32 : BitVec 32 := 1024#32
  let v19 : BitVec 32 := Scalar.muli arg0 c1024_i32
  v19
def k1_off1 (i : grid1.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def k1_mult2 (i : grid1.Coords) : BitVec 32 :=
  let arg1 : BitVec 32 := BitVec.ofNat 32 (i 1).val
  let c512_i32 : BitVec 32 := 512#32
  let v3 : BitVec 32 := Scalar.muli arg1 c512_i32
  v3
def k1_off2 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v7 : Index := Scalar.indexCast v4
  let c0_2 : Index := 0#32
  ![v7.toNat, 0]
def k1_cond2 (i : grid1.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S512x512_S512x512_0_0 : ∀ a, (![0, 0] : Fin 2 → Nat) a + S512x512.size a ≤ S512x512.size a
  h_S512x512 : 0 < S512x512.numel
  broadcasts_S512x1_S512x512 : S512x1.Broadcasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  h_S1024x512 : 0 < S1024x512.numel
  shapeCasts_S1024x512_S1024x512 : S1024x512.ShapeCasts S1024x512
  inb_S1024x512_S1024x512_0_0 : ∀ a, (![0, 0] : Fin 2 → Nat) a + S1024x512.size a ≤ S1024x512.size a
  shapeCasts_S512x512_S512x512 : S512x512.ShapeCasts S512x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x512.size a
  hwx0_3 : ∀ i : grid0.Coords, EltTy.bits .bf16 = 32 ∨ (Rect.block (s := S8192x512) S512x512.size (cc0_transform_3 i) (hinb0_3 i)).WholeWords (EltTy.packing .bf16)
  hrank1 : 0 < grid1.rank
  k1_mult1_dvd : ∀ i : grid1.Coords, ∀ (k1_h1 : k1_cond1 i = 1#1), 1024 ∣ (k1_mult1 i).toNat
  k1_off1_inb : ∀ i : grid1.Coords, ∀ (k1_h1 : k1_cond1 i = 1#1), ∀ a, (k1_off1 i) a + S1024x512.size a ≤ S8192x512.size a
  k1_mult2_dvd : ∀ i : grid1.Coords, 512 ∣ (k1_mult2 i).toNat
  k1_off2_inb : ∀ i : grid1.Coords, ∀ a, (k1_off2 i) a + S512x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x512 : S_.BroadcastsInDim S8192x512 (![] : Fin 0 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Bits.DegreePass.lean ====
import proofs.«165094_j38611755991575_2_alg».proof.Proof.Gen.Kernel.Launch
import proofs.«165094_j38611755991575_2_alg».proof.Proof.Gen.Kernel.Skeleton
import proofs.«165094_j38611755991575_2_alg».proof.Proof.Gen.Kernel.Points
import Idealize.ShloMosaic.Lib.Pipeline.FrameBody
import Idealize.ShloMosaic.Lib.Ring
import Idealize.ShloMosaic.Lib.Tactic

/-!
# The degree pass: one grid point's body, and what the pass leaves

The first pass walks the 8192 rows of the adjacency matrix in 16 blocks of 512 rows. At a block it reads the 512 × 8192
block of the adjacency matrix and the 512 × 512 block of the features, and writes two blocks: the column of reciprocal
square roots of the rows' degrees (the row sum plus one) and the features scaled row by row by that column. Nothing is
carried from one block to the next, so what a block's two outputs hold is a function of the two blocks read.
-/

set_option maxRecDepth 16384

noncomputable section

namespace Cert.Kernel.DegreePass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point. -/
theorem before_adj {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The feature window's staging buffer holds its block at every point. -/
theorem before_feat {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The whole 512 × 8192 block, the whole 512 × 512 block and the whole 512 × 1 column as rectangles. -/
abbrev rAdj : Rect S512x8192 := Rect.unit (s := S512x8192) ![0, 0] S512x8192.size inb_S512x8192_S512x8192_0_0
abbrev rSq : Rect S512x512 := Rect.unit (s := S512x512) ![0, 0] S512x512.size inb_S512x512_S512x512_0_0
abbrev rCol : Rect S512x1 := Rect.unit (s := S512x1) ![0, 0] S512x1.size inb_S512x1_S512x1_0_0

/-- The column block after the body: the reciprocal square roots of the degrees of the adjacency block's rows. -/
def colOut (a : Vec F S512x8192 .f32) : Vec F S512x1 .f32 :=
  View.canon [⟨rCol, k0_pay1 (View.ld a rAdj)⟩]

/-- The scaled-feature block after the body. -/
def scaledOut (a : Vec F S512x8192 .f32) (x : Vec F S512x512 .f32) : Vec F S512x512 .bf16 :=
  View.canon [⟨rSq, k0_pay2 (View.ld a rAdj) (View.ld x rSq)⟩]

theorem cover_col (p : Vec F S512x1 .f32) (y : S512x1.Idx) :
    ∃ pc ∈ ([⟨rCol, p⟩] : List (View.Piece (Elt F) S512x1 .f32)), y ∈ pc.1.set :=
  View.cover_of_tiled [⟨rCol, p⟩] S512x1.size (by rfl) y

theorem cover_scaled (p : Vec F S512x512 .bf16) (y : S512x512.Idx) :
    ∃ pc ∈ ([⟨rSq, p⟩] : List (View.Piece (Elt F) S512x512 .bf16)), y ∈ pc.1.set :=
  View.cover_of_tiled [⟨rSq, p⟩] S512x512.size (by rfl) y

set_option maxHeartbeats 1000000 in
/-- The body on whole staging buffers: the two inputs stay as they were, the column buffer ends at `colOut` and the
    scaled-feature buffer at `scaledOut` of the two blocks read. -/
theorem body_run (c : Dev nD) (E : Set ℕ) (i : grid0.Coords)
    (arg1 : Memref sig .tc .vmem S512x8192 .f32) (harg1 : arg1.IsWhole) (arg2 : Memref sig .tc .vmem S512x512 .f32) (harg2 : arg2.IsWhole)
    (arg3 : Memref sig .tc .vmem S512x1 .f32) (harg3 : arg3.IsWhole) (arg4 : Memref sig .tc .vmem S512x512 .bf16) (harg4 : arg4.IsWhole)
    (a : Vec F S512x8192 .f32) (x : Vec F S512x512 .f32) (K : PUnit → sProp 𝕄) :
    iprop(owns (c : Thread nD τ) arg1 fullShare a ∗ owns (c : Thread nD τ) arg2 fullShare x
        ∗ (∃ d, owns (c : Thread nD τ) arg3 fullShare d) ∗ (∃ d, owns (c : Thread nD τ) arg4 fullShare d)
        ∗ (iprop(owns (c : Thread nD τ) arg1 fullShare a ∗ owns (c : Thread nD τ) arg2 fullShare x
            ∗ owns (c : Thread nD τ) arg3 fullShare (colOut a) ∗ owns (c : Thread nD τ) arg4 fullShare (scaledOut a x)) -∗ K ⟨⟩))
      ⊢ wp frame (wpE (defs₀ (F := F)) Variants.none c none) E (cc0__degree_kernel i arg1 harg1 arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_col _)
  iexists _; isplitr
  swap; · iexact H3
  ipureintro
  exact View.read_writes_eq_canon _ _ _ (cover_scaled _)

/-- The pass's proof data on core `c`: the arrays as the pass finds them; after the body at a point each input's
    buffer at its block and each output's at its function of the two blocks; the scoped rest and the generator register
    untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => colOut (blockAt V c 0 t)
    | ⟨3, _⟩ => scaledOut (blockAt V c 0 t) (blockAt V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_adj (c : Dev nD) (t : Fin cfg0.N) : (dat V c).after 0 t = blockAt V c 0 t := by dsimp only [dat]
theorem after_feat (c : Dev nD) (t : Fin cfg0.N) : (dat V c).after 1 t = blockAt V c 1 t := by dsimp only [dat]
theorem after_col (c : Dev nD) (t : Fin cfg0.N) : (dat V c).after 2 t = colOut (blockAt V c 0 t) := by dsimp only [dat]
theorem after_scaled (c : Dev nD) (t : Fin cfg0.N) : (dat V c).after 3 t = scaledOut (blockAt V c 0 t) (blockAt V c 1 t) := by dsimp only [dat]

theorem before_adj_dat (c : Dev nD) (t : Fin cfg0.N) (d) : (dat V c).before 0 t d = blockAt V c 0 t :=
  before_adj V (dat V c) (A_eq V c 0) (after_adj V c) t d
theorem before_feat_dat (c : Dev nD) (t : Fin cfg0.N) (d) : (dat V c).before 1 t d = blockAt V c 1 t :=
  before_feat V (dat V c) (A_eq V c 1) (after_feat V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `body_run` applies; the invariant and what the
    core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj_dat, before_feat_dat]
  rw [show (dat V c).Φ t.succ = (dat V c).Φ t.castSucc from rfl,
    show (dat V c).owesAt () t.succ = (dat V c).owesAt () t.castSucc from rfl,
    after_adj, after_feat, after_col, after_scaled]
  iintro ⟨HΦ, Ho, ⟨%d0, H0⟩, ⟨%d1, H1⟩, ⟨%d2, H2⟩, ⟨%d3, H3⟩⟩
  iapply (body_run c Set.univ _ _ _ _ _ _ _ _ _ (blockAt V c 0 t) (blockAt V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact body_at V c t

end Cert.Kernel.DegreePass

end
-- ==== Proof.Bits.AggregateRuns.lean ====
import proofs.«165094_j38611755991575_2_alg».proof.Proof.Gen.Kernel.Launch
import proofs.«165094_j38611755991575_2_alg».proof.Proof.Gen.Kernel.Skeleton
import proofs.«165094_j38611755991575_2_alg».proof.Proof.Gen.Kernel.Points
import Idealize.ShloMosaic.Lib.Pipeline.FrameBody
import Idealize.ShloMosaic.Lib.Ring
import Idealize.ShloMosaic.Lib.Tactic

/-!
# The aggregation pass: the body's three cases

The second pass walks the adjacency matrix in 8 row blocks of 1024 rows and, within a row block, 16 column chunks of 512
columns; the column chunk is the fast axis, so grid point `t` is row block `t / 16`, chunk `t % 16`. A 1024 × 512
scratch accumulator is carried from one point to the next. At a point the body

* at chunk 0 first seeds the scratch with the row block's own rows of the scaled features;
* at every chunk adds to the scratch the product of the adjacency block with the chunk's 512 rows of the scaled features;
* at chunk 15 scales the scratch row by row by the degree column, multiplies by the weights, takes the positive part and
  stores the row block of the result.

So a point is in one of three cases: chunk 0, a chunk strictly between, chunk 15. The result window is written only in
the last case and is idle in the other two. Each case's run is stated on any whole staging buffers; the pieces the
stores leave are found by the run itself.
-/

set_option maxRecDepth 16384

noncomputable section

namespace Cert.Kernel.AggregatePass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- The body seeds the scratch exactly at chunk 0. -/
theorem seeds_iff : ∀ t : Fin cfg1.N, k1_cond1 (grid1.coords t) = 1#1 ↔ t.val % 16 = 0 :=
  (by decide +kernel : ∀ t : Fin grid1.N, k1_cond1 (grid1.coords t) = 1#1 ↔ t.val % 16 = 0)

/-- The body stores the result exactly at chunk 15. -/
theorem stores_iff : ∀ t : Fin cfg1.N, k1_cond2 (grid1.coords t) = 1#1 ↔ t.val % 16 = 15 :=
  (by decide +kernel : ∀ t : Fin grid1.N, k1_cond2 (grid1.coords t) = 1#1 ↔ t.val % 16 = 15)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Away from chunk 15 the result window is idle and is not written back. -/
theorem idle4 : ∀ t : Fin cfg1.N, ¬ k1_cond2 (grid1.coords t) = 1#1 → cfg1.idle 4 (grid1.coords t) = true := by decide +kernel
theorem noFlush4 : ∀ t : Fin cfg1.N, ¬ k1_cond2 (grid1.coords t) = 1#1 → (cfg1.win 4).flush t = false := by decide +kernel
/-- At chunk 15 it is live. -/
theorem live4 : ∀ t : Fin cfg1.N, k1_cond2 (grid1.coords t) = 1#1 → cfg1.idle 4 (grid1.coords t) = false := by decide +kernel

/-! ## The buffers the body is called with -/

abbrev mAdj (t : Fin cfg1.N) : Memref sig .tc .vmem S1024x512 .f32 := win1_0.stage (cfg1.slots t 0)
abbrev hAdj (t : Fin cfg1.N) : (mAdj t).IsWhole := hstage1_0 ((cfg1.slots t 0).cast nbuf1_0)
abbrev mScaled (t : Fin cfg1.N) : Memref sig .tc .vmem S8192x512 .bf16 := win1_1.stage (cfg1.slots t 1)
abbrev hScaled (t : Fin cfg1.N) : (mScaled t).IsWhole := hstage1_1 ((cfg1.slots t 1).cast nbuf1_1)
abbrev mCol (t : Fin cfg1.N) : Memref sig .tc .vmem S1024x1 .f32 := win1_2.stage (cfg1.slots t 2)
abbrev hCol (t : Fin cfg1.N) : (mCol t).IsWhole := hstage1_2 ((cfg1.slots t 2).cast nbuf1_2)
abbrev mW (t : Fin cfg1.N) : Memref sig .tc .vmem S512x512 .f32 := win1_3.stage (cfg1.slots t 3)
abbrev hW (t : Fin cfg1.N) : (mW t).IsWhole := hstage1_3 ((cfg1.slots t 3).cast nbuf1_3)
abbrev mOut (t : Fin cfg1.N) : Memref sig .tc .vmem S1024x512 .f32 := win1_4.stage (cfg1.slots t 4)
abbrev hOut (t : Fin cfg1.N) : (mOut t).IsWhole := hstage1_4 ((cfg1.slots t 4).cast nbuf1_4)
/-- The scratch accumulator: a whole scoped buffer of the kernel's own. -/
abbrev mAcc : Memref sig .tc .vmem S1024x512 .f32 := Memref.whole cc1_scratch0
/-- The accumulator and the result block as views: what they hold is stated through them. -/
abbrev vAcc : View sig .tc .vmem S1024x512 .f32 := mAcc.view
abbrev vOut : View sig .tc .vmem S1024x512 .f32 := (Memref.whole cc1_stg4_0 : Memref sig .tc .vmem S1024x512 .f32).view

/-! ## The case at chunk 0: seed, then accumulate -/

set_option maxHeartbeats 2000000 in
/-- At chunk 0, on whole buffers with the inputs at their contents, the idle result buffer at contents handed back
    untouched and the accumulator at anything, the body runs and leaves the inputs and the result buffer as they were
    and the accumulator with the run's pieces written. -/
noncomputable def runFirst (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S512x512 .f32) (harg5 : arg5.IsWhole)
    (arg6 : Memref sig .tc .vmem S1024x512 .f32) (harg6 : arg6.IsWhole) (arg7 : Memref sig .tc .vmem S1024x512 .f32) (harg7 : arg7.IsWhole)
    (hc1 : k1_cond1 i = 1#1) (hc2 : ¬ k1_cond2 i = 1#1)
    (x0 : Vec F S1024x512 .f32) (x1 : Vec F S8192x512 .bf16) (x2 : Vec F S1024x1 .f32) (x3 : Vec F S512x512 .f32) :
    { LS : List (View.Piece (Elt F) S1024x512 .f32) //
      ∀ (xi : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

/-! ## The case strictly between: accumulate -/

set_option maxHeartbeats 2000000 in
/-- At a chunk strictly between, with the accumulator at what the point before left, the body runs and leaves the
    inputs and the idle result buffer as they were and the accumulator with the run's pieces written. -/
noncomputable def runMiddle (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S512x512 .f32) (harg5 : arg5.IsWhole)
    (arg6 : Memref sig .tc .vmem S1024x512 .f32) (harg6 : arg6.IsWhole) (arg7 : Memref sig .tc .vmem S1024x512 .f32) (harg7 : arg7.IsWhole)
    (hc1 : ¬ k1_cond1 i = 1#1) (hc2 : ¬ k1_cond2 i = 1#1)
    (x0 : Vec F S1024x512 .f32) (x1 : Vec F S8192x512 .bf16) (x2 : Vec F S1024x1 .f32) (x3 : Vec F S512x512 .f32) (xs : Vec F S1024x512 .f32) :
    { LS : List (View.Piece (Elt F) S1024x512 .f32) //
      ∀ (xi : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

/-! ## The case at chunk 15: accumulate, then scale, multiply by the weights and store -/

set_option maxHeartbeats 2000000 in
/-- At chunk 15, with the accumulator at what the point before left and the result buffer at anything, the body runs
    and leaves the inputs as they were, the result buffer with the run's pieces written and the accumulator with the
    run's pieces written. -/
noncomputable def runLast (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S512x512 .f32) (harg5 : arg5.IsWhole)
    (arg6 : Memref sig .tc .vmem S1024x512 .f32) (harg6 : arg6.IsWhole) (arg7 : Memref sig .tc .vmem S1024x512 .f32) (harg7 : arg7.IsWhole)
    (hc1 : ¬ k1_cond1 i = 1#1) (hc2 : k1_cond2 i = 1#1)
    (x0 : Vec F S1024x512 .f32) (x1 : Vec F S8192x512 .bf16) (x2 : Vec F S1024x1 .f32) (x3 : Vec F S512x512 .f32) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.AggregatePass

end
-- ==== Proof.Bits.AggregatePass.lean ====
import proofs.«165094_j38611755991575_2_alg».proof.Proof.Bits.AggregateRuns

/-!
# The aggregation pass: what the accumulator and the result hold point by point, and the body obligation

The accumulator after grid point `n` is defined by recursion on `n`: at chunk 0 what the seeding case leaves from the
point's blocks alone; at any other chunk what the accumulating case leaves from the point's blocks and the accumulator
after point `n - 1`. The result block is what the last case leaves at chunk 15 (elsewhere the window is idle and its
buffer's contents are never consulted). Between points the pass's invariant holds the accumulator at the contents the
point before left; before the first point it holds it at anything.
-/

set_option maxRecDepth 16384

noncomputable section

namespace Cert.Kernel.AggregatePass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before_in0 {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What each case leaves, at a point's buffers -/

/-- What the seeding case leaves in the accumulator: its pieces read back. -/
def accFirst (c : Dev nD) (t : Fin cfg1.N) (hc1 : k1_cond1 (grid1.coords t) = 1#1) (hc2 : ¬ k1_cond2 (grid1.coords t) = 1#1) (x0 : Vec F S1024x512 .f32) (x1 : Vec F S8192x512 .bf16) (x2 : Vec F S1024x1 .f32) (x3 : Vec F S512x512 .f32) : Vec F S1024x512 .f32 :=
  vAcc.read (Elt F) (vAcc.writes (Elt F) vAcc.junk (runFirst c (grid1.coords t) (mAdj t) (hAdj t) (mScaled t) (hScaled t) (mCol t) (hCol t) (mW t) (hW t) (mOut t) (hOut t) mAcc (Memref.isWhole_whole _) hc1 hc2 x0 x1 x2 x3).1)
/-- Its pieces tile the accumulator. -/
theorem cover_accFirst (c : Dev nD) (t : Fin cfg1.N) (hc1 : k1_cond1 (grid1.coords t) = 1#1) (hc2 : ¬ k1_cond2 (grid1.coords t) = 1#1) (x0 : Vec F S1024x512 .f32) (x1 : Vec F S8192x512 .bf16) (x2 : Vec F S1024x1 .f32) (x3 : Vec F S512x512 .f32) (y : S1024x512.Idx) :
    ∃ pc ∈ (runFirst c (grid1.coords t) (mAdj t) (hAdj t) (mScaled t) (hScaled t) (mCol t) (hCol t) (mW t) (hW t) (mOut t) (hOut t) mAcc (Memref.isWhole_whole _) hc1 hc2 x0 x1 x2 x3).1, y ∈ pc.1.set :=
  View.cover_of_tiledL (runFirst c (grid1.coords t) (mAdj t) (hAdj t) (mScaled t) (hScaled t) (mCol t) (hCol t) (mW t) (hW t) (mOut t) (hOut t) mAcc (Memref.isWhole_whole _) hc1 hc2 x0 x1 x2 x3).1 S1024x512.size (by sl_kernel_rfl) y

/-- What the accumulating case leaves in the accumulator. -/
def accMiddle (c : Dev nD) (t : Fin cfg1.N) (hc1 : ¬ k1_cond1 (grid1.coords t) = 1#1) (hc2 : ¬ k1_cond2 (grid1.coords t) = 1#1) (x0 : Vec F S1024x512 .f32) (x1 : Vec F S8192x512 .bf16) (x2 : Vec F S1024x1 .f32) (x3 : Vec F S512x512 .f32) (xs : Vec F S1024x512 .f32) : Vec F S1024x512 .f32 :=
  vAcc.read (Elt F) (vAcc.writes (Elt F) vAcc.junk (runMiddle c (grid1.coords t) (mAdj t) (hAdj t) (mScaled t) (hScaled t) (mCol t) (hCol t) (mW t) (hW t) (mOut t) (hOut t) mAcc (Memref.isWhole_whole _) hc1 hc2 x0 x1 x2 x3 xs).1)
theorem cover_accMiddle (c : Dev nD) (t : Fin cfg1.N) (hc1 : ¬ k1_cond1 (grid1.coords t) = 1#1) (hc2 : ¬ k1_cond2 (grid1.coords t) = 1#1) (x0 : Vec F S1024x512 .f32) (x1 : Vec F S8192x512 .bf16) (x2 : Vec F S1024x1 .f32) (x3 : Vec F S512x512 .f32) (xs : Vec F S1024x512 .f32) (y : S1024x512.Idx) :
    ∃ pc ∈ (runMiddle c (grid1.coords t) (mAdj t) (hAdj t) (mScaled t) (hScaled t) (mCol t) (hCol t) (mW t) (hW t) (mOut t) (hOut t) mAcc (Memref.isWhole_whole _) hc1 hc2 x0 x1 x2 x3 xs).1, y ∈ pc.1.set :=
  View.cover_of_tiledL (runMiddle c (grid1.coords t) (mAdj t) (hAdj t) (mScaled t) (hScaled t) (mCol t) (hCol t) (mW t) (hW t) (mOut t) (hOut t) mAcc (Memref.isWhole_whole _) hc1 hc2 x0 x1 x2 x3 xs).1 S1024x512.size (by sl_kernel_rfl) y

/-- What the last case leaves in the accumulator, -/
def accLast (c : Dev nD) (t : Fin cfg1.N) (hc1 : ¬ k1_cond1 (grid1.coords t) = 1#1) (hc2 : k1_cond2 (grid1.coords t) = 1#1) (x0 : Vec F S1024x512 .f32) (x1 : Vec F S8192x512 .bf16) (x2 : Vec F S1024x1 .f32) (x3 : Vec F S512x512 .f32) (xs : Vec F S1024x512 .f32) : Vec F S1024x512 .f32 :=
  vAcc.read (Elt F) (vAcc.writes (Elt F) vAcc.junk (runLast c (grid1.coords t) (mAdj t) (hAdj t) (mScaled t) (hScaled t) (mCol t) (hCol t) (mW t) (hW t) (mOut t) (hOut t) mAcc (Memref.isWhole_whole _) hc1 hc2 x0 x1 x2 x3 xs).2.1)
theorem cover_accLast (c : Dev nD) (t : Fin cfg1.N) (hc1 : ¬ k1_cond1 (grid1.coords t) = 1#1) (hc2 : k1_cond2 (grid1.coords t) = 1#1) (x0 : Vec F S1024x512 .f32) (x1 : Vec F S8192x512 .bf16) (x2 : Vec F S1024x1 .f32) (x3 : Vec F S512x512 .f32) (xs : Vec F S1024x512 .f32) (y : S1024x512.Idx) :
    ∃ pc ∈ (runLast c (grid1.coords t) (mAdj t) (hAdj t) (mScaled t) (hScaled t) (mCol t) (hCol t) (mW t) (hW t) (mOut t) (hOut t) mAcc (Memref.isWhole_whole _) hc1 hc2 x0 x1 x2 x3 xs).2.1, y ∈ pc.1.set :=
  View.cover_of_tiledL (runLast c (grid1.coords t) (mAdj t) (hAdj t) (mScaled t) (hScaled t) (mCol t) (hCol t) (mW t) (hW t) (mOut t) (hOut t) mAcc (Memref.isWhole_whole _) hc1 hc2 x0 x1 x2 x3 xs).2.1 S1024x512.size (by sl_kernel_rfl) y
/-- and in the result block. -/
def resLast (c : Dev nD) (t : Fin cfg1.N) (hc1 : ¬ k1_cond1 (grid1.coords t) = 1#1) (hc2 : k1_cond2 (grid1.coords t) = 1#1) (x0 : Vec F S1024x512 .f32) (x1 : Vec F S8192x512 .bf16) (x2 : Vec F S1024x1 .f32) (x3 : Vec F S512x512 .f32) (xs : Vec F S1024x512 .f32) : Vec F S1024x512 .f32 :=
  vOut.read (Elt F) (vOut.writes (Elt F) vOut.junk (runLast c (grid1.coords t) (mAdj t) (hAdj t) (mScaled t) (hScaled t) (mCol t) (hCol t) (mW t) (hW t) (mOut t) (hOut t) mAcc (Memref.isWhole_whole _) hc1 hc2 x0 x1 x2 x3 xs).1)
theorem cover_resLast (c : Dev nD) (t : Fin cfg1.N) (hc1 : ¬ k1_cond1 (grid1.coords t) = 1#1) (hc2 : k1_cond2 (grid1.coords t) = 1#1) (x0 : Vec F S1024x512 .f32) (x1 : Vec F S8192x512 .bf16) (x2 : Vec F S1024x1 .f32) (x3 : Vec F S512x512 .f32) (xs : Vec F S1024x512 .f32) (y : S1024x512.Idx) :
    ∃ pc ∈ (runLast c (grid1.coords t) (mAdj t) (hAdj t) (mScaled t) (hScaled t) (mCol t) (hCol t) (mW t) (hW t) (mOut t) (hOut t) mAcc (Memref.isWhole_whole _) hc1 hc2 x0 x1 x2 x3 xs).1, y ∈ pc.1.set :=
  View.cover_of_tiledL (runLast c (grid1.coords t) (mAdj t) (hAdj t) (mScaled t) (hScaled t) (mCol t) (hCol t) (mW t) (hW t) (mOut t) (hOut t) mAcc (Memref.isWhole_whole _) hc1 hc2 x0 x1 x2 x3 xs).1 S1024x512.size (by sl_kernel_rfl) y

/-! ## The accumulator and the result, point by point -/

theorem not_stores_of_seeds (t : Fin cfg1.N) (h0 : t.val % 16 = 0) : ¬ k1_cond2 (grid1.coords t) = 1#1 :=
  fun h => by have := (stores_iff t).mp h; omega
theorem not_seeds_of_ne (t : Fin cfg1.N) (h0 : ¬ t.val % 16 = 0) : ¬ k1_cond1 (grid1.coords t) = 1#1 :=
  fun h => h0 ((seeds_iff t).mp h)
theorem not_stores_of_ne (t : Fin cfg1.N) (h15 : ¬ t.val % 16 = 15) : ¬ k1_cond2 (grid1.coords t) = 1#1 :=
  fun h => h15 ((stores_iff t).mp h)

/-- THE ACCUMULATION: the accumulator after the body at position `n`. -/
def accAt (c : Dev nD) : (n : ℕ) → n < cfg1.N → Vec F S1024x512 .f32
  | 0, hn => accFirst c ⟨0, hn⟩ ((seeds_iff ⟨0, hn⟩).mpr (Nat.zero_mod _)) (not_stores_of_seeds ⟨0, hn⟩ (Nat.zero_mod _)) (blockAt V c 0 ⟨0, hn⟩) (blockAt V c 1 ⟨0, hn⟩) (blockAt V c 2 ⟨0, hn⟩) (blockAt V c 3 ⟨0, hn⟩)
  | n + 1, hn =>
    if h0 : (n + 1) % 16 = 0 then
      accFirst c ⟨n + 1, hn⟩ ((seeds_iff ⟨n + 1, hn⟩).mpr h0) (not_stores_of_seeds ⟨n + 1, hn⟩ h0) (blockAt V c 0 ⟨n + 1, hn⟩) (blockAt V c 1 ⟨n + 1, hn⟩) (blockAt V c 2 ⟨n + 1, hn⟩) (blockAt V c 3 ⟨n + 1, hn⟩)
    else if h15 : (n + 1) % 16 = 15 then
      accLast c ⟨n + 1, hn⟩ (not_seeds_of_ne ⟨n + 1, hn⟩ h0) ((stores_iff ⟨n + 1, hn⟩).mpr h15) (blockAt V c 0 ⟨n + 1, hn⟩) (blockAt V c 1 ⟨n + 1, hn⟩) (blockAt V c 2 ⟨n + 1, hn⟩) (blockAt V c 3 ⟨n + 1, hn⟩) (accAt c n (Nat.lt_of_succ_lt hn))
    else
      accMiddle c ⟨n + 1, hn⟩ (not_seeds_of_ne ⟨n + 1, hn⟩ h0) (not_stores_of_ne ⟨n + 1, hn⟩ h15) (blockAt V c 0 ⟨n + 1, hn⟩) (blockAt V c 1 ⟨n + 1, hn⟩) (blockAt V c 2 ⟨n + 1, hn⟩) (blockAt V c 3 ⟨n + 1, hn⟩) (accAt c n (Nat.lt_of_succ_lt hn))

theorem accAt_first (c : Dev nD) (t : Fin cfg1.N) (h0 : t.val % 16 = 0) :
    accAt V c t.val t.isLt = accFirst c t ((seeds_iff t).mpr h0) (not_stores_of_seeds t h0) (blockAt V c 0 t) (blockAt V c 1 t) (blockAt V c 2 t) (blockAt V c 3 t) := by
  obtain ⟨n, hn⟩ := t
  cases n with
  | zero => rfl
  | succ n => exact dif_pos h0

theorem accAt_middle (c : Dev nD) (t : Fin cfg1.N) (h0 : ¬ t.val % 16 = 0) (h15 : ¬ t.val % 16 = 15) :
    accAt V c t.val t.isLt = accMiddle c t (not_seeds_of_ne t h0) (not_stores_of_ne t h15) (blockAt V c 0 t) (blockAt V c 1 t) (blockAt V c 2 t) (blockAt V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h15)

theorem accAt_last (c : Dev nD) (t : Fin cfg1.N) (h0 : ¬ t.val % 16 = 0) (h15 : t.val % 16 = 15) :
    accAt V c t.val t.isLt = accLast c t (not_seeds_of_ne t h0) ((stores_iff t).mpr h15) (blockAt V c 0 t) (blockAt V c 1 t) (blockAt V c 2 t) (blockAt V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h15)

/-- The result block after the body at point `t`: at chunk 15 what the last case leaves, from the point's blocks and the
    accumulator after the point before; elsewhere a placeholder nothing consults (the window is idle there). -/
def resAt (c : Dev nD) (t : Fin cfg1.N) : Vec F S1024x512 .f32 :=
  if h15 : t.val % 16 = 15 then
    resLast c t (not_seeds_of_ne t (by omega)) ((stores_iff t).mpr h15) (blockAt V c 0 t) (blockAt V c 1 t) (blockAt V c 2 t) (blockAt V c 3 t)
      (accAt V c (t.val - 1) (Nat.lt_of_le_of_lt (Nat.sub_le _ _) t.isLt))
  else vOut.read (Elt F) vOut.junk

theorem resAt_last (c : Dev nD) (t : Fin cfg1.N) (h0 : ¬ t.val % 16 = 0) (h15 : t.val % 16 = 15) :
    resAt V c t = resLast c t (not_seeds_of_ne t h0) ((stores_iff t).mpr h15) (blockAt V c 0 t) (blockAt V c 1 t) (blockAt V c 2 t) (blockAt V c 3 t)
      (accAt V c (t.val - 1) (Nat.lt_of_le_of_lt (Nat.sub_le _ _) t.isLt)) := dif_pos h15

/-! ## The invariant between points -/

/-- The core's scoped buffers other than this pass's staging buffers and accumulator, each whole at some contents,
    the generator register at some state, and a statement `Q` about the accumulator. -/
abbrev scopedWith (c : Dev nD) (Q : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ Q) ∗ (∃ r, prngReg c r))

/-- The statement about the accumulator changed, everything else carried along. -/
theorem scopedWith_wand (c : Dev nD) (Q Q' : sProp 𝕄) : scopedWith c Q ⊢ iprop(Q ∗ (Q' -∗ scopedWith c Q')) := by
  iintro ⟨⟨H0, H1, H2, H3, H4, H5, H6, H7, HQ⟩, Hg⟩
  isplitl [HQ]; · iexact HQ
  iintro HQ'
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HQ'
  iexact Hg

/-- Before the first point: the accumulator at anything. -/
theorem PhiA_eq (c : Dev nD) :
    (Pipeline.ΦA spec1 c : sProp 𝕄) = scopedWith c iprop(∃ d, owns (c : Thread nD τ) mAcc fullShare d) := by
  unfold Pipeline.ΦA; rw [scopedRest1_eq]; simp only [mAcc, owns_whole]; try rfl

/-- The pass's invariant before position `n`. -/
def accInv (c : Dev nD) : (n : ℕ) → n ≤ cfg1.N → sProp 𝕄
  | 0, _ => Pipeline.ΦA spec1 c
  | n + 1, hn => scopedWith c (owns (c : Thread nD τ) mAcc fullShare (accAt V c n hn))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = scopedWith c (owns (c : Thread nD τ) mAcc fullShare (accAt V c n hn)) := rfl
theorem accInv_pos (c : Dev nD) (n : ℕ) (h : n ≤ cfg1.N) (hz : n ≠ 0) :
    accInv V c n h = scopedWith c (owns (c : Thread nD τ) mAcc fullShare (accAt V c (n - 1) (by omega))) := by
  cases n with
  | zero => exact absurd rfl hz
  | succ n => rfl

/-- Whatever the position, the invariant holds the accumulator at SOME contents. -/
theorem accInv_some (c : Dev nD) (n : ℕ) (h : n ≤ cfg1.N) :
    accInv V c n h ⊢ scopedWith c iprop(∃ d, owns (c : Thread nD τ) mAcc fullShare d) := by
  cases n with
  | zero => rw [accInv_zero V c 0 h rfl, PhiA_eq]; try exact BI.Entails.refl _
  | succ n =>
    rw [accInv_succ]
    iintro H
    ihave H' := (scopedWith_wand c _ iprop(∃ d, owns (c : Thread nD τ) mAcc fullShare d)) $$ H
    icases H' with ⟨HS, Hw⟩
    iapply Hw
    iexists _; iexact HS

/-! ## The pass's proof data -/

def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => resAt V c t
  Φ t := accInv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = accInv V c t.val (Nat.le_of_lt t.isLt) := by
  dsimp only [dat]; simp only [Fin.coe_castSucc]
theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = resAt V c t := by dsimp only [dat]

theorem before0 (c : Dev nD) (t : Fin cfg1.N) (d) : (dat V c).before 0 t d = blockAt V c 0 t :=
  before_in0 V (dat V c) (A_eq V c 0) (after0 V c) t d
theorem before1 (c : Dev nD) (t : Fin cfg1.N) (d) : (dat V c).before 1 t d = blockAt V c 1 t :=
  before_in1 V (dat V c) (A_eq V c 1) (after1 V c) t d
theorem before2 (c : Dev nD) (t : Fin cfg1.N) (d) : (dat V c).before 2 t d = blockAt V c 2 t :=
  before_in2 V (dat V c) (A_eq V c 2) (after2 V c) t d
theorem before3 (c : Dev nD) (t : Fin cfg1.N) (d) : (dat V c).before 3 t d = blockAt V c 3 t :=
  before_in3 V (dat V c) (A_eq V c 3) (after3 V c) t d

end Cert.Kernel.AggregatePass

end
-- ==== Proof.Bits.AggregateBody.lean ====
import proofs.«165094_j38611755991575_2_alg».proof.Proof.Bits.AggregatePass

/-!
# The aggregation pass: the body obligation

At any grid point the input buffers hold their blocks; the point's residue modulo 16 says which of the three cases it is
in, so that case's run applies. The invariant hands the body the accumulator — at anything for the seeding case, at what
the point before left for the other two — and takes it back at this point's contents. Away from chunk 15 the result
buffer is handed back untouched.
-/

set_option maxRecDepth 16384

noncomputable section

namespace Cert.Kernel.AggregatePass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mScaled t) fullShare ((dat V c).before 1 t d))
    ∗ (∃ d, owns (c : Thread nD τ) (mCol t) fullShare ((dat V c).before 2 t d))
    ∗ (∃ d, owns (c : Thread nD τ) (mW t) fullShare ((dat V c).before 3 t d))
    ∗ (∃ d, owns (c : Thread nD τ) (mOut t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = accInv V c (t.val + 1) t.isLt from rfl, accInv_succ, inv_castSucc]
  rw [show (dat V c).leavesExact 0 t = owns (c : Thread nD τ) (mAdj t) fullShare ((dat V c).after 0 t) from by unfold Dat.leavesExact; rw [live0 t], after0]
  rw [show (dat V c).leavesExact 1 t = owns (c : Thread nD τ) (mScaled t) fullShare ((dat V c).after 1 t) from by unfold Dat.leavesExact; rw [live1 t], after1]
  rw [show (dat V c).leavesExact 2 t = owns (c : Thread nD τ) (mCol t) fullShare ((dat V c).after 2 t) from by unfold Dat.leavesExact; rw [live2 t], after2]
  rw [show (dat V c).leavesExact 3 t = owns (c : Thread nD τ) (mW t) fullShare ((dat V c).after 3 t) from by unfold Dat.leavesExact; rw [live3 t], after3]
  by_cases h0 : t.val % 16 = 0
  · -- chunk 0: the accumulator is seeded; whatever it held is overwritten
    have hc1 := (seeds_iff t).mpr h0
    have hc2 := not_stores_of_seeds t h0
    rw [Dat.leavesExact_idle (dat V c) 4 t (idle4 t hc2) (noFlush4 t hc2)]
    rw [accAt_first V c t h0]
    unfold accFirst
    iintro ⟨HΦ, Ho, ⟨%d0, H0⟩, ⟨%d1, H1⟩, ⟨%d2, H2⟩, ⟨%d3, H3⟩, ⟨%d4, H4⟩⟩
    ihave HΦ' := (accInv_some V c t.val _) $$ HΦ
    ihave HΦ'' := (scopedWith_wand c _ (owns (c : Thread nD τ) mAcc fullShare
      (vAcc.read (Elt F) (vAcc.writes (Elt F) vAcc.junk (runFirst c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t)).1)))) $$ HΦ'
    icases HΦ'' with ⟨HS, Hw⟩
    iapply ((runFirst c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hw]
    · iapply Hw
      unfold owns; iexists _; isplitr
      swap; · iexact HS
      ipureintro; exact View.read_writes_of_cover _ _ _ _ _ (cover_accFirst c t hc1 hc2 _ _ _ _)
    isplitl [Ho]; · iexact Ho
    isplitl [H0]; · iexact H0
    isplitl [H1]; · iexact H1
    isplitl [H2]; · iexact H2
    isplitl [H3]; · iexact H3
    iexists _; iexact H4
  · have hc1 := not_seeds_of_ne t h0
    have hz : t.val ≠ 0 := fun h => h0 (by rw [h])
    rw [accInv_pos V c _ _ hz]
    by_cases h15 : t.val % 16 = 15
    · -- chunk 15: accumulate, then the result block is stored
      have hc2 := (stores_iff t).mpr h15
      rw [show (dat V c).leavesExact 4 t = owns (c : Thread nD τ) (mOut t) fullShare ((dat V c).after 4 t) from by unfold Dat.leavesExact; rw [live4 t hc2], after4]
      rw [accAt_last V c t h0 h15, resAt_last V c t h0 h15]
      unfold accLast resLast
      iintro ⟨HΦ, Ho, ⟨%d0, H0⟩, ⟨%d1, H1⟩, ⟨%d2, H2⟩, ⟨%d3, H3⟩, ⟨%d4, H4⟩⟩
      ihave HΦ'' := (scopedWith_wand c _ (owns (c : Thread nD τ) mAcc fullShare
        (vAcc.read (Elt F) (vAcc.writes (Elt F) vAcc.junk (runLast c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t)
          (accAt V c (t.val - 1) (Nat.lt_of_le_of_lt (Nat.sub_le _ _) t.isLt))).2.1)))) $$ HΦ
      icases HΦ'' with ⟨HS, Hw⟩
      iapply ((runLast c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hw]
      · iapply Hw
        unfold owns; iexists _; isplitr
        swap; · iexact HS
        ipureintro; exact View.read_writes_of_cover _ _ _ _ _ (cover_accLast c t hc1 hc2 _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_resLast c t hc1 hc2 _ _ _ _ _)
    · -- a chunk strictly between: accumulate
      have hc2 := not_stores_of_ne t h15
      rw [Dat.leavesExact_idle (dat V c) 4 t (idle4 t hc2) (noFlush4 t hc2)]
      rw [accAt_middle V c t h0 h15]
      unfold accMiddle
      iintro ⟨HΦ, Ho, ⟨%d0, H0⟩, ⟨%d1, H1⟩, ⟨%d2, H2⟩, ⟨%d3, H3⟩, ⟨%d4, H4⟩⟩
      ihave HΦ'' := (scopedWith_wand c _ (owns (c : Thread nD τ) mAcc fullShare
        (vAcc.read (Elt F) (vAcc.writes (Elt F) vAcc.junk (runMiddle c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t)
          (accAt V c (t.val - 1) (Nat.lt_of_le_of_lt (Nat.sub_le _ _) t.isLt))).1)))) $$ HΦ
      icases HΦ'' with ⟨HS, Hw⟩
      iapply ((runMiddle c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hw]
      · iapply Hw
        unfold owns; iexists _; isplitr
        swap; · iexact HS
        ipureintro; exact View.read_writes_of_cover _ _ _ _ _ (cover_accMiddle c t hc1 hc2 _ _ _ _ _)
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W1, bigSep_W1]
  exact body_at V c t

/-- What the launch hands the pass is the invariant before the first point. -/
theorem inv_in (c : Dev nD) : Pipeline.ΦA spec1 c ⊢ (dat V c).Φ 0 := by
  rw [show (dat V c).Φ 0 = accInv V c 0 (Nat.zero_le _) from rfl, accInv_zero V c 0 _ rfl]
  try exact BI.Entails.refl _

/-- After the last point the invariant gives the class's back: the accumulator's named contents are forgotten. -/
theorem inv_out (c : Dev nD) : (dat V c).Φ (Fin.last cfg1.N) ⊢ Pipeline.ΦA spec1 c := by
  rw [show (dat V c).Φ (Fin.last cfg1.N) = accInv V c (Fin.last cfg1.N).val (Nat.le_of_lt_succ (Fin.last cfg1.N).isLt) from rfl, PhiA_eq]
  exact accInv_some V c _ _

end Cert.Kernel.AggregatePass

end
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.Bits.LayerRun.lean ====
import proofs.«165094_j38611755991575_2_alg».proof.Proof.Bits.DegreePass
import proofs.«165094_j38611755991575_2_alg».proof.Proof.Bits.AggregateBody
import proofs.«165094_j38611755991575_2_alg».proof.Proof.LibRegionRecord
import Idealize.ShloMosaic.Lib.Pipeline.Regions
import Idealize.ShloMosaic.Lib.Pipeline.Kit

/-!
# The whole run: the degree pass, then the aggregation pass

The program is the two passes one after the other and nothing else. Between them the core's unscoped buffers are, in
turn: as launched; after the degree pass, with the degree column and the scaled features at what its write-backs leave;
after the aggregation pass, with the result at what its write-backs leave. Neither pass writes an argument. So every
weakly fair execution terminates, the result ends at the aggregation pass's array and the arguments end as launched.
-/

set_option maxRecDepth 16384

noncomputable section

namespace Cert.Kernel.LayerRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the passes -/

/-- As launched. -/
abbrev W0 : Dev nD → Valuation τ sig (Elt F) := fun c b => m (c, b)
abbrev V0 : (c : Dev nD) → (b : Ref sig .tc) → Buf (Elt F) ((c : Thread nD τ).loc b) := fun c b => W0 m c b

/-- After the degree pass: its arrays at what the write-backs leave, every other buffer as before. -/
def W1 (c : Dev nD) : Valuation τ sig (Elt F) :=
  Pipeline.withArrays spec0 c (W0 m c) fun w => (DegreePass.dat (V0 m) c).arrAt w cfg0.N
theorem W1_arr (c : Dev nD) (w : Fin cfg0.W) :
    W1 m c (Proc.devRef .tc (Pipeline.arrRef spec0 w)) = (DegreePass.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b

/-- After the aggregation pass. -/
def W2 (c : Dev nD) : Valuation τ sig (Elt F) :=
  Pipeline.withArrays spec1 c (W1 m c) fun w => (AggregatePass.dat (V1 m) c).arrAt w cfg1.N
theorem W2_arr (c : Dev nD) (w : Fin cfg1.W) :
    W2 m c (Proc.devRef .tc (Pipeline.arrRef spec1 w)) = (AggregatePass.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b

/-! ## The arguments end as launched -/

theorem W1_main_arg0 (c : Dev nD) : W1 m c (Proc.devRef .tc main_arg0) = m ((c : Thread nD τ).loc main_arg0) :=
  (W1_arr m c 1).trans (((DegreePass.dat (V0 m) c).arrAt_in 1 rfl _).trans (DegreePass.A_eq (V0 m) c 1))
theorem W1_main_arg1 (c : Dev nD) : W1 m c (Proc.devRef .tc main_arg1) = m ((c : Thread nD τ).loc main_arg1) :=
  (W1_arr m c 0).trans (((DegreePass.dat (V0 m) c).arrAt_in 0 rfl _).trans (DegreePass.A_eq (V0 m) c 0))
theorem W1_main_arg2 (c : Dev nD) : W1 m c (Proc.devRef .tc main_arg2) = m ((c : Thread nD τ).loc main_arg2) :=
  W1_of_ne m c main_arg2 (by decide)

theorem W2_main_arg0 (c : Dev nD) : W2 m c (Proc.devRef .tc main_arg0) = m ((c : Thread nD τ).loc main_arg0) :=
  (W2_of_ne m c main_arg0 (by decide)).trans (W1_main_arg0 m c)
theorem W2_main_arg1 (c : Dev nD) : W2 m c (Proc.devRef .tc main_arg1) = m ((c : Thread nD τ).loc main_arg1) :=
  ((W2_arr m c 0).trans (((AggregatePass.dat (V1 m) c).arrAt_in 0 rfl _).trans (AggregatePass.A_eq (V1 m) c 0))).trans (W1_main_arg1 m c)
theorem W2_main_arg2 (c : Dev nD) : W2 m c (Proc.devRef .tc main_arg2) = m ((c : Thread nD τ).loc main_arg2) :=
  ((W2_arr m c 3).trans (((AggregatePass.dat (V1 m) c).arrAt_in 3 rfl _).trans (AggregatePass.A_eq (V1 m) c 3))).trans (W1_main_arg2 m c)

/-! ## The proof data family and the passes as segments -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => DegreePass.dat (V0 m) c
  | ⟨1, _⟩ => fun c => AggregatePass.dat (V1 m) c

abbrev 𝒱₀ : Variants := Variants.none
abbrev L : GSem nD τ sig → Finset Unit := fun _ => ∅
abbrev lv : GSem nD τ sig → Unit → ℕ := fun _ _ => 0

theorem no_tables_held (p : Fin 2) (c : Dev nD) :
    (BI.emp : sProp 𝕄) ⊢ Pipeline.prefHeld (Ix := Unit) (Name := ℕ) (U := UR sig nD τ) (Lvl := ℕ) (pcfgs (F := F) p).pre c (fun _ => fullShare) (adm (F := F) p).1 := by
  unfold Pipeline.prefHeld; rw [show (Finset.univ : Finset (Fin 0)) = ∅ from rfl, BI.bigSep_empty]; try exact BI.Entails.refl _

set_option backward.isDefEq.respectTransparency.types false in
/-- The degree pass as a segment, entered at the launch contents and left at `W1`. -/
def degreeSeg : Pipeline.RegionSeg (pcfgs (F := F)) adm (pdats m) () defs₀ 𝒱₀ L lv 0 :=
  RegionRecord.regionSeg (pcfgs (F := F)) adm (pdats m) 0 launch0.toP defs₀ 𝒱₀ (W0 m) (W1 m)
    (fun c => (DegreePass.body_obligation (V0 m) c).loose)
    (fun c => (pdats m 0 c).share_full fun _ => rfl) (fun _ _ => rfl) (fun _ => rfl)
    (fun _ _ => rfl) (fun _ k => k.elim0)
    (fun c w => (W1_arr m c w).symm)
    (fun c b hb => W1_of_ne m c b fun w e => hb (Finset.mem_image.mpr ⟨w, Finset.mem_univ _, e⟩))
    (fun c => by
      rw [show (pdats m 0 c).Φ 0 = Pipeline.ΦA spec0 c from rfl]
      iintro ⟨H, -⟩; iexact H)
    (fun c => by
      rw [show (pdats m 0 c).Φ (Fin.last _) = Pipeline.ΦA spec0 c from rfl]
      iintro H
      isplitl [H]; · iexact H
      iapply (no_tables_held 0 c); iempintro)

set_option backward.isDefEq.respectTransparency.types false in
/-- The aggregation pass as a segment, entered at `W1` and left at `W2`. -/
def aggregateSeg : Pipeline.RegionSeg (pcfgs (F := F)) adm (pdats m) () defs₀ 𝒱₀ L lv 1 :=
  RegionRecord.regionSeg (pcfgs (F := F)) adm (pdats m) 1 launch1.toP defs₀ 𝒱₀ (W1 m) (W2 m)
    (fun c => (AggregatePass.body_obligation (V1 m) c).loose)
    (fun c => (pdats m 1 c).share_full fun _ => rfl) (fun _ _ => rfl) (fun _ => rfl)
    (fun _ _ => rfl) (fun _ k => k.elim0)
    (fun c w => (W2_arr m c w).symm)
    (fun c b hb => W2_of_ne m c b fun w e => hb (Finset.mem_image.mpr ⟨w, Finset.mem_univ _, e⟩))
    (fun c => by
      refine BIBase.Entails.trans ?_ (AggregatePass.inv_in (V1 m) c)
      iintro ⟨H, -⟩; iexact H)
    (fun c => by
      refine BIBase.Entails.trans (AggregatePass.inv_out (V1 m) c) ?_
      iintro H
      isplitl [H]; · iexact H
      iapply (no_tables_held 1 c); iempintro)

abbrev segs : List (Pipeline.Seg (pcfgs (F := F)) adm (pdats m) () defs₀ 𝒱₀ L lv) :=
  [ .region (degreeSeg m), .region (aggregateSeg m) ]

theorem main_run (c : Dev nD) : main (F := F) c = Pipeline.Seg.run (segs m) :=
  main_segs adm (pdats m) () 𝒱₀ L lv (degreeSeg m) (aggregateSeg m) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes. -/
abbrev Tₙ (c : Dev nD) : sProp 𝕄 := iprop(StableHlo.held (c : Thread nD τ) (Pipeline.ucRefs τ sig) (W2 m c) ∗ ∃ r, prngReg c r)

set_option backward.isDefEq.respectTransparency.types false in
/-- THE RUN. From any memory with zero counters every weakly fair execution terminates, nothing faulting; the result
    ends at the aggregation pass's array and the three arguments end as launched. -/
theorem run_main : θ_run defs (onTc (τ := τ) (main (F := F))) ⟨m, fun _ => 0, ρ⟩ (fun r => ∀ c : Dev nD,
      r.2.mem ((c.tc : Thread nD τ).loc main_v1) = (AggregatePass.dat (V1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => RegionRecord.threadState (U := UR sig nD τ) (W0 m) c) (Tₙ := Tₙ m)
    (hch := ⟨fun _ => .rfl, fun _ => .rfl, fun c => by
      show RegionRecord.threadState (U := UR sig nD τ) (W2 m) c ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_arr m c 4),
       (h c _ (mem_uc main_arg0 (by decide))).trans (W2_main_arg0 m c),
       (h c _ (mem_uc main_arg1 (by decide))).trans (W2_main_arg1 m c),
       (h c _ (mem_uc main_arg2 (by decide))).trans (W2_main_arg2 m c)⟩)

end Cert.Kernel.LayerRun

end
-- ==== Proof.Ideal.DegreePass.lean ====
import proofs.«165094_j38611755991575_2_alg».proof.Proof.Gen.KernelIdeal.Launch
import proofs.«165094_j38611755991575_2_alg».proof.Proof.Gen.KernelIdeal.Skeleton
import proofs.«165094_j38611755991575_2_alg».proof.Proof.Gen.KernelIdeal.Points
import Idealize.ShloMosaic.Lib.Pipeline.FrameBody
import Idealize.ShloMosaic.Lib.Ring
import Idealize.ShloMosaic.Lib.Tactic

/-!
# The degree pass: one grid point's body, and what the pass leaves

The first pass walks the 8192 rows of the adjacency matrix in 16 blocks of 512 rows. At a block it reads the 512 × 8192
block of the adjacency matrix and the 512 × 512 block of the features, and writes two blocks: the column of reciprocal
square roots of the rows' degrees (the row sum plus one) and the features scaled row by row by that column. Nothing is
carried from one block to the next, so what a block's two outputs hold is a function of the two blocks read.
-/

set_option maxRecDepth 16384

noncomputable section

namespace Cert.KernelIdeal.DegreePass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point. -/
theorem before_adj {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The feature window's staging buffer holds its block at every point. -/
theorem before_feat {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The whole 512 × 8192 block, the whole 512 × 512 block and the whole 512 × 1 column as rectangles. -/
abbrev rAdj : Rect S512x8192 := Rect.unit (s := S512x8192) ![0, 0] S512x8192.size inb_S512x8192_S512x8192_0_0
abbrev rSq : Rect S512x512 := Rect.unit (s := S512x512) ![0, 0] S512x512.size inb_S512x512_S512x512_0_0
abbrev rCol : Rect S512x1 := Rect.unit (s := S512x1) ![0, 0] S512x1.size inb_S512x1_S512x1_0_0

/-- The column block after the body: the reciprocal square roots of the degrees of the adjacency block's rows. -/
def colOut (a : Vec F S512x8192 .f32) : Vec F S512x1 .f32 :=
  View.canon [⟨rCol, k0_pay1 (View.ld a rAdj)⟩]

/-- The scaled-feature block after the body. -/
def scaledOut (a : Vec F S512x8192 .f32) (x : Vec F S512x512 .f32) : Vec F S512x512 .bf16 :=
  View.canon [⟨rSq, k0_pay2 (View.ld a rAdj) (View.ld x rSq)⟩]

theorem cover_col (p : Vec F S512x1 .f32) (y : S512x1.Idx) :
    ∃ pc ∈ ([⟨rCol, p⟩] : List (View.Piece (Elt F) S512x1 .f32)), y ∈ pc.1.set :=
  View.cover_of_tiled [⟨rCol, p⟩] S512x1.size (by rfl) y

theorem cover_scaled (p : Vec F S512x512 .bf16) (y : S512x512.Idx) :
    ∃ pc ∈ ([⟨rSq, p⟩] : List (View.Piece (Elt F) S512x512 .bf16)), y ∈ pc.1.set :=
  View.cover_of_tiled [⟨rSq, p⟩] S512x512.size (by rfl) y

set_option maxHeartbeats 1000000 in
/-- The body on whole staging buffers: the two inputs stay as they were, the column buffer ends at `colOut` and the
    scaled-feature buffer at `scaledOut` of the two blocks read. -/
theorem body_run (c : Dev nD) (E : Set ℕ) (i : grid0.Coords)
    (arg1 : Memref sig .tc .vmem S512x8192 .f32) (harg1 : arg1.IsWhole) (arg2 : Memref sig .tc .vmem S512x512 .f32) (harg2 : arg2.IsWhole)
    (arg3 : Memref sig .tc .vmem S512x1 .f32) (harg3 : arg3.IsWhole) (arg4 : Memref sig .tc .vmem S512x512 .bf16) (harg4 : arg4.IsWhole)
    (a : Vec F S512x8192 .f32) (x : Vec F S512x512 .f32) (K : PUnit → sProp 𝕄) :
    iprop(owns (c : Thread nD τ) arg1 fullShare a ∗ owns (c : Thread nD τ) arg2 fullShare x
        ∗ (∃ d, owns (c : Thread nD τ) arg3 fullShare d) ∗ (∃ d, owns (c : Thread nD τ) arg4 fullShare d)
        ∗ (iprop(owns (c : Thread nD τ) arg1 fullShare a ∗ owns (c : Thread nD τ) arg2 fullShare x
            ∗ owns (c : Thread nD τ) arg3 fullShare (colOut a) ∗ owns (c : Thread nD τ) arg4 fullShare (scaledOut a x)) -∗ K ⟨⟩))
      ⊢ wp frame (wpE (defs₀ (F := F)) Variants.none c none) E (cc0__degree_kernel i arg1 harg1 arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_col _)
  iexists _; isplitr
  swap; · iexact H3
  ipureintro
  exact View.read_writes_eq_canon _ _ _ (cover_scaled _)

/-- The pass's proof data on core `c`: the arrays as the pass finds them; after the body at a point each input's
    buffer at its block and each output's at its function of the two blocks; the scoped rest and the generator register
    untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => colOut (blockAt V c 0 t)
    | ⟨3, _⟩ => scaledOut (blockAt V c 0 t) (blockAt V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_adj (c : Dev nD) (t : Fin cfg0.N) : (dat V c).after 0 t = blockAt V c 0 t := by dsimp only [dat]
theorem after_feat (c : Dev nD) (t : Fin cfg0.N) : (dat V c).after 1 t = blockAt V c 1 t := by dsimp only [dat]
theorem after_col (c : Dev nD) (t : Fin cfg0.N) : (dat V c).after 2 t = colOut (blockAt V c 0 t) := by dsimp only [dat]
theorem after_scaled (c : Dev nD) (t : Fin cfg0.N) : (dat V c).after 3 t = scaledOut (blockAt V c 0 t) (blockAt V c 1 t) := by dsimp only [dat]

theorem before_adj_dat (c : Dev nD) (t : Fin cfg0.N) (d) : (dat V c).before 0 t d = blockAt V c 0 t :=
  before_adj V (dat V c) (A_eq V c 0) (after_adj V c) t d
theorem before_feat_dat (c : Dev nD) (t : Fin cfg0.N) (d) : (dat V c).before 1 t d = blockAt V c 1 t :=
  before_feat V (dat V c) (A_eq V c 1) (after_feat V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `body_run` applies; the invariant and what the
    core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj_dat, before_feat_dat]
  rw [show (dat V c).Φ t.succ = (dat V c).Φ t.castSucc from rfl,
    show (dat V c).owesAt () t.succ = (dat V c).owesAt () t.castSucc from rfl,
    after_adj, after_feat, after_col, after_scaled]
  iintro ⟨HΦ, Ho, ⟨%d0, H0⟩, ⟨%d1, H1⟩, ⟨%d2, H2⟩, ⟨%d3, H3⟩⟩
  iapply (body_run c Set.univ _ _ _ _ _ _ _ _ _ (blockAt V c 0 t) (blockAt V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact body_at V c t

end Cert.KernelIdeal.DegreePass

end
-- ==== Proof.Ideal.AggregateRuns.lean ====
import proofs.«165094_j38611755991575_2_alg».proof.Proof.Gen.KernelIdeal.Launch
import proofs.«165094_j38611755991575_2_alg».proof.Proof.Gen.KernelIdeal.Skeleton
import proofs.«165094_j38611755991575_2_alg».proof.Proof.Gen.KernelIdeal.Points
import Idealize.ShloMosaic.Lib.Pipeline.FrameBody
import Idealize.ShloMosaic.Lib.Ring
import Idealize.ShloMosaic.Lib.Tactic

/-!
# The aggregation pass: the body's three cases

The second pass walks the adjacency matrix in 8 row blocks of 1024 rows and, within a row block, 16 column chunks of 512
columns; the column chunk is the fast axis, so grid point `t` is row block `t / 16`, chunk `t % 16`. A 1024 × 512
scratch accumulator is carried from one point to the next. At a point the body

* at chunk 0 first seeds the scratch with the row block's own rows of the scaled features;
* at every chunk adds to the scratch the product of the adjacency block with the chunk's 512 rows of the scaled features;
* at chunk 15 scales the scratch row by row by the degree column, multiplies by the weights, takes the positive part and
  stores the row block of the result.

So a point is in one of three cases: chunk 0, a chunk strictly between, chunk 15. The result window is written only in
the last case and is idle in the other two. Each case's run is stated on any whole staging buffers; the pieces the
stores leave are found by the run itself.
-/

set_option maxRecDepth 16384

noncomputable section

namespace Cert.KernelIdeal.AggregatePass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- The body seeds the scratch exactly at chunk 0. -/
theorem seeds_iff : ∀ t : Fin cfg1.N, k1_cond1 (grid1.coords t) = 1#1 ↔ t.val % 16 = 0 :=
  (by decide +kernel : ∀ t : Fin grid1.N, k1_cond1 (grid1.coords t) = 1#1 ↔ t.val % 16 = 0)

/-- The body stores the result exactly at chunk 15. -/
theorem stores_iff : ∀ t : Fin cfg1.N, k1_cond2 (grid1.coords t) = 1#1 ↔ t.val % 16 = 15 :=
  (by decide +kernel : ∀ t : Fin grid1.N, k1_cond2 (grid1.coords t) = 1#1 ↔ t.val % 16 = 15)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Away from chunk 15 the result window is idle and is not written back. -/
theorem idle4 : ∀ t : Fin cfg1.N, ¬ k1_cond2 (grid1.coords t) = 1#1 → cfg1.idle 4 (grid1.coords t) = true := by decide +kernel
theorem noFlush4 : ∀ t : Fin cfg1.N, ¬ k1_cond2 (grid1.coords t) = 1#1 → (cfg1.win 4).flush t = false := by decide +kernel
/-- At chunk 15 it is live. -/
theorem live4 : ∀ t : Fin cfg1.N, k1_cond2 (grid1.coords t) = 1#1 → cfg1.idle 4 (grid1.coords t) = false := by decide +kernel

/-! ## The buffers the body is called with -/

abbrev mAdj (t : Fin cfg1.N) : Memref sig .tc .vmem S1024x512 .f32 := win1_0.stage (cfg1.slots t 0)
abbrev hAdj (t : Fin cfg1.N) : (mAdj t).IsWhole := hstage1_0 ((cfg1.slots t 0).cast nbuf1_0)
abbrev mScaled (t : Fin cfg1.N) : Memref sig .tc .vmem S8192x512 .bf16 := win1_1.stage (cfg1.slots t 1)
abbrev hScaled (t : Fin cfg1.N) : (mScaled t).IsWhole := hstage1_1 ((cfg1.slots t 1).cast nbuf1_1)
abbrev mCol (t : Fin cfg1.N) : Memref sig .tc .vmem S1024x1 .f32 := win1_2.stage (cfg1.slots t 2)
abbrev hCol (t : Fin cfg1.N) : (mCol t).IsWhole := hstage1_2 ((cfg1.slots t 2).cast nbuf1_2)
abbrev mW (t : Fin cfg1.N) : Memref sig .tc .vmem S512x512 .f32 := win1_3.stage (cfg1.slots t 3)
abbrev hW (t : Fin cfg1.N) : (mW t).IsWhole := hstage1_3 ((cfg1.slots t 3).cast nbuf1_3)
abbrev mOut (t : Fin cfg1.N) : Memref sig .tc .vmem S1024x512 .f32 := win1_4.stage (cfg1.slots t 4)
abbrev hOut (t : Fin cfg1.N) : (mOut t).IsWhole := hstage1_4 ((cfg1.slots t 4).cast nbuf1_4)
/-- The scratch accumulator: a whole scoped buffer of the kernel's own. -/
abbrev mAcc : Memref sig .tc .vmem S1024x512 .f32 := Memref.whole cc1_scratch0
/-- The accumulator and the result block as views: what they hold is stated through them. -/
abbrev vAcc : View sig .tc .vmem S1024x512 .f32 := mAcc.view
abbrev vOut : View sig .tc .vmem S1024x512 .f32 := (Memref.whole cc1_stg4_0 : Memref sig .tc .vmem S1024x512 .f32).view

/-! ## The case at chunk 0: seed, then accumulate -/

set_option maxHeartbeats 2000000 in
/-- At chunk 0, on whole buffers with the inputs at their contents, the idle result buffer at contents handed back
    untouched and the accumulator at anything, the body runs and leaves the inputs and the result buffer as they were
    and the accumulator with the run's pieces written. -/
noncomputable def runFirst (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S512x512 .f32) (harg5 : arg5.IsWhole)
    (arg6 : Memref sig .tc .vmem S1024x512 .f32) (harg6 : arg6.IsWhole) (arg7 : Memref sig .tc .vmem S1024x512 .f32) (harg7 : arg7.IsWhole)
    (hc1 : k1_cond1 i = 1#1) (hc2 : ¬ k1_cond2 i = 1#1)
    (x0 : Vec F S1024x512 .f32) (x1 : Vec F S8192x512 .bf16) (x2 : Vec F S1024x1 .f32) (x3 : Vec F S512x512 .f32) :
    { LS : List (View.Piece (Elt F) S1024x512 .f32) //
      ∀ (xi : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

/-! ## The case strictly between: accumulate -/

set_option maxHeartbeats 2000000 in
/-- At a chunk strictly between, with the accumulator at what the point before left, the body runs and leaves the
    inputs and the idle result buffer as they were and the accumulator with the run's pieces written. -/
noncomputable def runMiddle (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S512x512 .f32) (harg5 : arg5.IsWhole)
    (arg6 : Memref sig .tc .vmem S1024x512 .f32) (harg6 : arg6.IsWhole) (arg7 : Memref sig .tc .vmem S1024x512 .f32) (harg7 : arg7.IsWhole)
    (hc1 : ¬ k1_cond1 i = 1#1) (hc2 : ¬ k1_cond2 i = 1#1)
    (x0 : Vec F S1024x512 .f32) (x1 : Vec F S8192x512 .bf16) (x2 : Vec F S1024x1 .f32) (x3 : Vec F S512x512 .f32) (xs : Vec F S1024x512 .f32) :
    { LS : List (View.Piece (Elt F) S1024x512 .f32) //
      ∀ (xi : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

/-! ## The case at chunk 15: accumulate, then scale, multiply by the weights and store -/

set_option maxHeartbeats 2000000 in
/-- At chunk 15, with the accumulator at what the point before left and the result buffer at anything, the body runs
    and leaves the inputs as they were, the result buffer with the run's pieces written and the accumulator with the
    run's pieces written. -/
noncomputable def runLast (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S512x512 .f32) (harg5 : arg5.IsWhole)
    (arg6 : Memref sig .tc .vmem S1024x512 .f32) (harg6 : arg6.IsWhole) (arg7 : Memref sig .tc .vmem S1024x512 .f32) (harg7 : arg7.IsWhole)
    (hc1 : ¬ k1_cond1 i = 1#1) (hc2 : k1_cond2 i = 1#1)
    (x0 : Vec F S1024x512 .f32) (x1 : Vec F S8192x512 .bf16) (x2 : Vec F S1024x1 .f32) (x3 : Vec F S512x512 .f32) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.AggregatePass

end
-- ==== Proof.Ideal.AggregatePass.lean ====
import proofs.«165094_j38611755991575_2_alg».proof.Proof.Ideal.AggregateRuns

/-!
# The aggregation pass: what the accumulator and the result hold point by point, and the body obligation

The accumulator after grid point `n` is defined by recursion on `n`: at chunk 0 what the seeding case leaves from the
point's blocks alone; at any other chunk what the accumulating case leaves from the point's blocks and the accumulator
after point `n - 1`. The result block is what the last case leaves at chunk 15 (elsewhere the window is idle and its
buffer's contents are never consulted). Between points the pass's invariant holds the accumulator at the contents the
point before left; before the first point it holds it at anything.
-/

set_option maxRecDepth 16384

noncomputable section

namespace Cert.KernelIdeal.AggregatePass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before_in0 {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What each case leaves, at a point's buffers -/

/-- What the seeding case leaves in the accumulator: its pieces read back. -/
def accFirst (c : Dev nD) (t : Fin cfg1.N) (hc1 : k1_cond1 (grid1.coords t) = 1#1) (hc2 : ¬ k1_cond2 (grid1.coords t) = 1#1) (x0 : Vec F S1024x512 .f32) (x1 : Vec F S8192x512 .bf16) (x2 : Vec F S1024x1 .f32) (x3 : Vec F S512x512 .f32) : Vec F S1024x512 .f32 :=
  vAcc.read (Elt F) (vAcc.writes (Elt F) vAcc.junk (runFirst c (grid1.coords t) (mAdj t) (hAdj t) (mScaled t) (hScaled t) (mCol t) (hCol t) (mW t) (hW t) (mOut t) (hOut t) mAcc (Memref.isWhole_whole _) hc1 hc2 x0 x1 x2 x3).1)
/-- Its pieces tile the accumulator. -/
theorem cover_accFirst (c : Dev nD) (t : Fin cfg1.N) (hc1 : k1_cond1 (grid1.coords t) = 1#1) (hc2 : ¬ k1_cond2 (grid1.coords t) = 1#1) (x0 : Vec F S1024x512 .f32) (x1 : Vec F S8192x512 .bf16) (x2 : Vec F S1024x1 .f32) (x3 : Vec F S512x512 .f32) (y : S1024x512.Idx) :
    ∃ pc ∈ (runFirst c (grid1.coords t) (mAdj t) (hAdj t) (mScaled t) (hScaled t) (mCol t) (hCol t) (mW t) (hW t) (mOut t) (hOut t) mAcc (Memref.isWhole_whole _) hc1 hc2 x0 x1 x2 x3).1, y ∈ pc.1.set :=
  View.cover_of_tiledL (runFirst c (grid1.coords t) (mAdj t) (hAdj t) (mScaled t) (hScaled t) (mCol t) (hCol t) (mW t) (hW t) (mOut t) (hOut t) mAcc (Memref.isWhole_whole _) hc1 hc2 x0 x1 x2 x3).1 S1024x512.size (by sl_kernel_rfl) y

/-- What the accumulating case leaves in the accumulator. -/
def accMiddle (c : Dev nD) (t : Fin cfg1.N) (hc1 : ¬ k1_cond1 (grid1.coords t) = 1#1) (hc2 : ¬ k1_cond2 (grid1.coords t) = 1#1) (x0 : Vec F S1024x512 .f32) (x1 : Vec F S8192x512 .bf16) (x2 : Vec F S1024x1 .f32) (x3 : Vec F S512x512 .f32) (xs : Vec F S1024x512 .f32) : Vec F S1024x512 .f32 :=
  vAcc.read (Elt F) (vAcc.writes (Elt F) vAcc.junk (runMiddle c (grid1.coords t) (mAdj t) (hAdj t) (mScaled t) (hScaled t) (mCol t) (hCol t) (mW t) (hW t) (mOut t) (hOut t) mAcc (Memref.isWhole_whole _) hc1 hc2 x0 x1 x2 x3 xs).1)
theorem cover_accMiddle (c : Dev nD) (t : Fin cfg1.N) (hc1 : ¬ k1_cond1 (grid1.coords t) = 1#1) (hc2 : ¬ k1_cond2 (grid1.coords t) = 1#1) (x0 : Vec F S1024x512 .f32) (x1 : Vec F S8192x512 .bf16) (x2 : Vec F S1024x1 .f32) (x3 : Vec F S512x512 .f32) (xs : Vec F S1024x512 .f32) (y : S1024x512.Idx) :
    ∃ pc ∈ (runMiddle c (grid1.coords t) (mAdj t) (hAdj t) (mScaled t) (hScaled t) (mCol t) (hCol t) (mW t) (hW t) (mOut t) (hOut t) mAcc (Memref.isWhole_whole _) hc1 hc2 x0 x1 x2 x3 xs).1, y ∈ pc.1.set :=
  View.cover_of_tiledL (runMiddle c (grid1.coords t) (mAdj t) (hAdj t) (mScaled t) (hScaled t) (mCol t) (hCol t) (mW t) (hW t) (mOut t) (hOut t) mAcc (Memref.isWhole_whole _) hc1 hc2 x0 x1 x2 x3 xs).1 S1024x512.size (by sl_kernel_rfl) y

/-- What the last case leaves in the accumulator, -/
def accLast (c : Dev nD) (t : Fin cfg1.N) (hc1 : ¬ k1_cond1 (grid1.coords t) = 1#1) (hc2 : k1_cond2 (grid1.coords t) = 1#1) (x0 : Vec F S1024x512 .f32) (x1 : Vec F S8192x512 .bf16) (x2 : Vec F S1024x1 .f32) (x3 : Vec F S512x512 .f32) (xs : Vec F S1024x512 .f32) : Vec F S1024x512 .f32 :=
  vAcc.read (Elt F) (vAcc.writes (Elt F) vAcc.junk (runLast c (grid1.coords t) (mAdj t) (hAdj t) (mScaled t) (hScaled t) (mCol t) (hCol t) (mW t) (hW t) (mOut t) (hOut t) mAcc (Memref.isWhole_whole _) hc1 hc2 x0 x1 x2 x3 xs).2.1)
theorem cover_accLast (c : Dev nD) (t : Fin cfg1.N) (hc1 : ¬ k1_cond1 (grid1.coords t) = 1#1) (hc2 : k1_cond2 (grid1.coords t) = 1#1) (x0 : Vec F S1024x512 .f32) (x1 : Vec F S8192x512 .bf16) (x2 : Vec F S1024x1 .f32) (x3 : Vec F S512x512 .f32) (xs : Vec F S1024x512 .f32) (y : S1024x512.Idx) :
    ∃ pc ∈ (runLast c (grid1.coords t) (mAdj t) (hAdj t) (mScaled t) (hScaled t) (mCol t) (hCol t) (mW t) (hW t) (mOut t) (hOut t) mAcc (Memref.isWhole_whole _) hc1 hc2 x0 x1 x2 x3 xs).2.1, y ∈ pc.1.set :=
  View.cover_of_tiledL (runLast c (grid1.coords t) (mAdj t) (hAdj t) (mScaled t) (hScaled t) (mCol t) (hCol t) (mW t) (hW t) (mOut t) (hOut t) mAcc (Memref.isWhole_whole _) hc1 hc2 x0 x1 x2 x3 xs).2.1 S1024x512.size (by sl_kernel_rfl) y
/-- and in the result block. -/
def resLast (c : Dev nD) (t : Fin cfg1.N) (hc1 : ¬ k1_cond1 (grid1.coords t) = 1#1) (hc2 : k1_cond2 (grid1.coords t) = 1#1) (x0 : Vec F S1024x512 .f32) (x1 : Vec F S8192x512 .bf16) (x2 : Vec F S1024x1 .f32) (x3 : Vec F S512x512 .f32) (xs : Vec F S1024x512 .f32) : Vec F S1024x512 .f32 :=
  vOut.read (Elt F) (vOut.writes (Elt F) vOut.junk (runLast c (grid1.coords t) (mAdj t) (hAdj t) (mScaled t) (hScaled t) (mCol t) (hCol t) (mW t) (hW t) (mOut t) (hOut t) mAcc (Memref.isWhole_whole _) hc1 hc2 x0 x1 x2 x3 xs).1)
theorem cover_resLast (c : Dev nD) (t : Fin cfg1.N) (hc1 : ¬ k1_cond1 (grid1.coords t) = 1#1) (hc2 : k1_cond2 (grid1.coords t) = 1#1) (x0 : Vec F S1024x512 .f32) (x1 : Vec F S8192x512 .bf16) (x2 : Vec F S1024x1 .f32) (x3 : Vec F S512x512 .f32) (xs : Vec F S1024x512 .f32) (y : S1024x512.Idx) :
    ∃ pc ∈ (runLast c (grid1.coords t) (mAdj t) (hAdj t) (mScaled t) (hScaled t) (mCol t) (hCol t) (mW t) (hW t) (mOut t) (hOut t) mAcc (Memref.isWhole_whole _) hc1 hc2 x0 x1 x2 x3 xs).1, y ∈ pc.1.set :=
  View.cover_of_tiledL (runLast c (grid1.coords t) (mAdj t) (hAdj t) (mScaled t) (hScaled t) (mCol t) (hCol t) (mW t) (hW t) (mOut t) (hOut t) mAcc (Memref.isWhole_whole _) hc1 hc2 x0 x1 x2 x3 xs).1 S1024x512.size (by sl_kernel_rfl) y

/-! ## The accumulator and the result, point by point -/

theorem not_stores_of_seeds (t : Fin cfg1.N) (h0 : t.val % 16 = 0) : ¬ k1_cond2 (grid1.coords t) = 1#1 :=
  fun h => by have := (stores_iff t).mp h; omega
theorem not_seeds_of_ne (t : Fin cfg1.N) (h0 : ¬ t.val % 16 = 0) : ¬ k1_cond1 (grid1.coords t) = 1#1 :=
  fun h => h0 ((seeds_iff t).mp h)
theorem not_stores_of_ne (t : Fin cfg1.N) (h15 : ¬ t.val % 16 = 15) : ¬ k1_cond2 (grid1.coords t) = 1#1 :=
  fun h => h15 ((stores_iff t).mp h)

/-- THE ACCUMULATION: the accumulator after the body at position `n`. -/
def accAt (c : Dev nD) : (n : ℕ) → n < cfg1.N → Vec F S1024x512 .f32
  | 0, hn => accFirst c ⟨0, hn⟩ ((seeds_iff ⟨0, hn⟩).mpr (Nat.zero_mod _)) (not_stores_of_seeds ⟨0, hn⟩ (Nat.zero_mod _)) (blockAt V c 0 ⟨0, hn⟩) (blockAt V c 1 ⟨0, hn⟩) (blockAt V c 2 ⟨0, hn⟩) (blockAt V c 3 ⟨0, hn⟩)
  | n + 1, hn =>
    if h0 : (n + 1) % 16 = 0 then
      accFirst c ⟨n + 1, hn⟩ ((seeds_iff ⟨n + 1, hn⟩).mpr h0) (not_stores_of_seeds ⟨n + 1, hn⟩ h0) (blockAt V c 0 ⟨n + 1, hn⟩) (blockAt V c 1 ⟨n + 1, hn⟩) (blockAt V c 2 ⟨n + 1, hn⟩) (blockAt V c 3 ⟨n + 1, hn⟩)
    else if h15 : (n + 1) % 16 = 15 then
      accLast c ⟨n + 1, hn⟩ (not_seeds_of_ne ⟨n + 1, hn⟩ h0) ((stores_iff ⟨n + 1, hn⟩).mpr h15) (blockAt V c 0 ⟨n + 1, hn⟩) (blockAt V c 1 ⟨n + 1, hn⟩) (blockAt V c 2 ⟨n + 1, hn⟩) (blockAt V c 3 ⟨n + 1, hn⟩) (accAt c n (Nat.lt_of_succ_lt hn))
    else
      accMiddle c ⟨n + 1, hn⟩ (not_seeds_of_ne ⟨n + 1, hn⟩ h0) (not_stores_of_ne ⟨n + 1, hn⟩ h15) (blockAt V c 0 ⟨n + 1, hn⟩) (blockAt V c 1 ⟨n + 1, hn⟩) (blockAt V c 2 ⟨n + 1, hn⟩) (blockAt V c 3 ⟨n + 1, hn⟩) (accAt c n (Nat.lt_of_succ_lt hn))

theorem accAt_first (c : Dev nD) (t : Fin cfg1.N) (h0 : t.val % 16 = 0) :
    accAt V c t.val t.isLt = accFirst c t ((seeds_iff t).mpr h0) (not_stores_of_seeds t h0) (blockAt V c 0 t) (blockAt V c 1 t) (blockAt V c 2 t) (blockAt V c 3 t) := by
  obtain ⟨n, hn⟩ := t
  cases n with
  | zero => rfl
  | succ n => exact dif_pos h0

theorem accAt_middle (c : Dev nD) (t : Fin cfg1.N) (h0 : ¬ t.val % 16 = 0) (h15 : ¬ t.val % 16 = 15) :
    accAt V c t.val t.isLt = accMiddle c t (not_seeds_of_ne t h0) (not_stores_of_ne t h15) (blockAt V c 0 t) (blockAt V c 1 t) (blockAt V c 2 t) (blockAt V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h15)

theorem accAt_last (c : Dev nD) (t : Fin cfg1.N) (h0 : ¬ t.val % 16 = 0) (h15 : t.val % 16 = 15) :
    accAt V c t.val t.isLt = accLast c t (not_seeds_of_ne t h0) ((stores_iff t).mpr h15) (blockAt V c 0 t) (blockAt V c 1 t) (blockAt V c 2 t) (blockAt V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h15)

/-- The result block after the body at point `t`: at chunk 15 what the last case leaves, from the point's blocks and the
    accumulator after the point before; elsewhere a placeholder nothing consults (the window is idle there). -/
def resAt (c : Dev nD) (t : Fin cfg1.N) : Vec F S1024x512 .f32 :=
  if h15 : t.val % 16 = 15 then
    resLast c t (not_seeds_of_ne t (by omega)) ((stores_iff t).mpr h15) (blockAt V c 0 t) (blockAt V c 1 t) (blockAt V c 2 t) (blockAt V c 3 t)
      (accAt V c (t.val - 1) (Nat.lt_of_le_of_lt (Nat.sub_le _ _) t.isLt))
  else vOut.read (Elt F) vOut.junk

theorem resAt_last (c : Dev nD) (t : Fin cfg1.N) (h0 : ¬ t.val % 16 = 0) (h15 : t.val % 16 = 15) :
    resAt V c t = resLast c t (not_seeds_of_ne t h0) ((stores_iff t).mpr h15) (blockAt V c 0 t) (blockAt V c 1 t) (blockAt V c 2 t) (blockAt V c 3 t)
      (accAt V c (t.val - 1) (Nat.lt_of_le_of_lt (Nat.sub_le _ _) t.isLt)) := dif_pos h15

/-! ## The invariant between points -/

/-- The core's scoped buffers other than this pass's staging buffers and accumulator, each whole at some contents,
    the generator register at some state, and a statement `Q` about the accumulator. -/
abbrev scopedWith (c : Dev nD) (Q : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ Q) ∗ (∃ r, prngReg c r))

/-- The statement about the accumulator changed, everything else carried along. -/
theorem scopedWith_wand (c : Dev nD) (Q Q' : sProp 𝕄) : scopedWith c Q ⊢ iprop(Q ∗ (Q' -∗ scopedWith c Q')) := by
  iintro ⟨⟨H0, H1, H2, H3, H4, H5, H6, H7, HQ⟩, Hg⟩
  isplitl [HQ]; · iexact HQ
  iintro HQ'
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HQ'
  iexact Hg

/-- Before the first point: the accumulator at anything. -/
theorem PhiA_eq (c : Dev nD) :
    (Pipeline.ΦA spec1 c : sProp 𝕄) = scopedWith c iprop(∃ d, owns (c : Thread nD τ) mAcc fullShare d) := by
  unfold Pipeline.ΦA; rw [scopedRest1_eq]; simp only [mAcc, owns_whole]; try rfl

/-- The pass's invariant before position `n`. -/
def accInv (c : Dev nD) : (n : ℕ) → n ≤ cfg1.N → sProp 𝕄
  | 0, _ => Pipeline.ΦA spec1 c
  | n + 1, hn => scopedWith c (owns (c : Thread nD τ) mAcc fullShare (accAt V c n hn))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = scopedWith c (owns (c : Thread nD τ) mAcc fullShare (accAt V c n hn)) := rfl
theorem accInv_pos (c : Dev nD) (n : ℕ) (h : n ≤ cfg1.N) (hz : n ≠ 0) :
    accInv V c n h = scopedWith c (owns (c : Thread nD τ) mAcc fullShare (accAt V c (n - 1) (by omega))) := by
  cases n with
  | zero => exact absurd rfl hz
  | succ n => rfl

/-- Whatever the position, the invariant holds the accumulator at SOME contents. -/
theorem accInv_some (c : Dev nD) (n : ℕ) (h : n ≤ cfg1.N) :
    accInv V c n h ⊢ scopedWith c iprop(∃ d, owns (c : Thread nD τ) mAcc fullShare d) := by
  cases n with
  | zero => rw [accInv_zero V c 0 h rfl, PhiA_eq]; try exact BI.Entails.refl _
  | succ n =>
    rw [accInv_succ]
    iintro H
    ihave H' := (scopedWith_wand c _ iprop(∃ d, owns (c : Thread nD τ) mAcc fullShare d)) $$ H
    icases H' with ⟨HS, Hw⟩
    iapply Hw
    iexists _; iexact HS

/-! ## The pass's proof data -/

def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => resAt V c t
  Φ t := accInv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = accInv V c t.val (Nat.le_of_lt t.isLt) := by
  dsimp only [dat]; simp only [Fin.coe_castSucc]
theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = resAt V c t := by dsimp only [dat]

theorem before0 (c : Dev nD) (t : Fin cfg1.N) (d) : (dat V c).before 0 t d = blockAt V c 0 t :=
  before_in0 V (dat V c) (A_eq V c 0) (after0 V c) t d
theorem before1 (c : Dev nD) (t : Fin cfg1.N) (d) : (dat V c).before 1 t d = blockAt V c 1 t :=
  before_in1 V (dat V c) (A_eq V c 1) (after1 V c) t d
theorem before2 (c : Dev nD) (t : Fin cfg1.N) (d) : (dat V c).before 2 t d = blockAt V c 2 t :=
  before_in2 V (dat V c) (A_eq V c 2) (after2 V c) t d
theorem before3 (c : Dev nD) (t : Fin cfg1.N) (d) : (dat V c).before 3 t d = blockAt V c 3 t :=
  before_in3 V (dat V c) (A_eq V c 3) (after3 V c) t d

end Cert.KernelIdeal.AggregatePass

end
-- ==== Proof.Ideal.AggregateBody.lean ====
import proofs.«165094_j38611755991575_2_alg».proof.Proof.Ideal.AggregatePass

/-!
# The aggregation pass: the body obligation

At any grid point the input buffers hold their blocks; the point's residue modulo 16 says which of the three cases it is
in, so that case's run applies. The invariant hands the body the accumulator — at anything for the seeding case, at what
the point before left for the other two — and takes it back at this point's contents. Away from chunk 15 the result
buffer is handed back untouched.
-/

set_option maxRecDepth 16384

noncomputable section

namespace Cert.KernelIdeal.AggregatePass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mScaled t) fullShare ((dat V c).before 1 t d))
    ∗ (∃ d, owns (c : Thread nD τ) (mCol t) fullShare ((dat V c).before 2 t d))
    ∗ (∃ d, owns (c : Thread nD τ) (mW t) fullShare ((dat V c).before 3 t d))
    ∗ (∃ d, owns (c : Thread nD τ) (mOut t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = accInv V c (t.val + 1) t.isLt from rfl, accInv_succ, inv_castSucc]
  rw [show (dat V c).leavesExact 0 t = owns (c : Thread nD τ) (mAdj t) fullShare ((dat V c).after 0 t) from by unfold Dat.leavesExact; rw [live0 t], after0]
  rw [show (dat V c).leavesExact 1 t = owns (c : Thread nD τ) (mScaled t) fullShare ((dat V c).after 1 t) from by unfold Dat.leavesExact; rw [live1 t], after1]
  rw [show (dat V c).leavesExact 2 t = owns (c : Thread nD τ) (mCol t) fullShare ((dat V c).after 2 t) from by unfold Dat.leavesExact; rw [live2 t], after2]
  rw [show (dat V c).leavesExact 3 t = owns (c : Thread nD τ) (mW t) fullShare ((dat V c).after 3 t) from by unfold Dat.leavesExact; rw [live3 t], after3]
  by_cases h0 : t.val % 16 = 0
  · -- chunk 0: the accumulator is seeded; whatever it held is overwritten
    have hc1 := (seeds_iff t).mpr h0
    have hc2 := not_stores_of_seeds t h0
    rw [Dat.leavesExact_idle (dat V c) 4 t (idle4 t hc2) (noFlush4 t hc2)]
    rw [accAt_first V c t h0]
    unfold accFirst
    iintro ⟨HΦ, Ho, ⟨%d0, H0⟩, ⟨%d1, H1⟩, ⟨%d2, H2⟩, ⟨%d3, H3⟩, ⟨%d4, H4⟩⟩
    ihave HΦ' := (accInv_some V c t.val _) $$ HΦ
    ihave HΦ'' := (scopedWith_wand c _ (owns (c : Thread nD τ) mAcc fullShare
      (vAcc.read (Elt F) (vAcc.writes (Elt F) vAcc.junk (runFirst c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t)).1)))) $$ HΦ'
    icases HΦ'' with ⟨HS, Hw⟩
    iapply ((runFirst c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hw]
    · iapply Hw
      unfold owns; iexists _; isplitr
      swap; · iexact HS
      ipureintro; exact View.read_writes_of_cover _ _ _ _ _ (cover_accFirst c t hc1 hc2 _ _ _ _)
    isplitl [Ho]; · iexact Ho
    isplitl [H0]; · iexact H0
    isplitl [H1]; · iexact H1
    isplitl [H2]; · iexact H2
    isplitl [H3]; · iexact H3
    iexists _; iexact H4
  · have hc1 := not_seeds_of_ne t h0
    have hz : t.val ≠ 0 := fun h => h0 (by rw [h])
    rw [accInv_pos V c _ _ hz]
    by_cases h15 : t.val % 16 = 15
    · -- chunk 15: accumulate, then the result block is stored
      have hc2 := (stores_iff t).mpr h15
      rw [show (dat V c).leavesExact 4 t = owns (c : Thread nD τ) (mOut t) fullShare ((dat V c).after 4 t) from by unfold Dat.leavesExact; rw [live4 t hc2], after4]
      rw [accAt_last V c t h0 h15, resAt_last V c t h0 h15]
      unfold accLast resLast
      iintro ⟨HΦ, Ho, ⟨%d0, H0⟩, ⟨%d1, H1⟩, ⟨%d2, H2⟩, ⟨%d3, H3⟩, ⟨%d4, H4⟩⟩
      ihave HΦ'' := (scopedWith_wand c _ (owns (c : Thread nD τ) mAcc fullShare
        (vAcc.read (Elt F) (vAcc.writes (Elt F) vAcc.junk (runLast c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t)
          (accAt V c (t.val - 1) (Nat.lt_of_le_of_lt (Nat.sub_le _ _) t.isLt))).2.1)))) $$ HΦ
      icases HΦ'' with ⟨HS, Hw⟩
      iapply ((runLast c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hw]
      · iapply Hw
        unfold owns; iexists _; isplitr
        swap; · iexact HS
        ipureintro; exact View.read_writes_of_cover _ _ _ _ _ (cover_accLast c t hc1 hc2 _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_resLast c t hc1 hc2 _ _ _ _ _)
    · -- a chunk strictly between: accumulate
      have hc2 := not_stores_of_ne t h15
      rw [Dat.leavesExact_idle (dat V c) 4 t (idle4 t hc2) (noFlush4 t hc2)]
      rw [accAt_middle V c t h0 h15]
      unfold accMiddle
      iintro ⟨HΦ, Ho, ⟨%d0, H0⟩, ⟨%d1, H1⟩, ⟨%d2, H2⟩, ⟨%d3, H3⟩, ⟨%d4, H4⟩⟩
      ihave HΦ'' := (scopedWith_wand c _ (owns (c : Thread nD τ) mAcc fullShare
        (vAcc.read (Elt F) (vAcc.writes (Elt F) vAcc.junk (runMiddle c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t)
          (accAt V c (t.val - 1) (Nat.lt_of_le_of_lt (Nat.sub_le _ _) t.isLt))).1)))) $$ HΦ
      icases HΦ'' with ⟨HS, Hw⟩
      iapply ((runMiddle c (grid1.coords t) (mAdj t) (hAdj t) (mScaled t) (hScaled t) (mCol t) (hCol t) (mW t) (hW t) (mOut t) (hOut t) mAcc (Memref.isWhole_whole _) hc1 hc2 (blockAt V c 0 t) (blockAt V c 1 t) (blockAt V c 2 t) (blockAt V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hw]
      · iapply Hw
        unfold owns; iexists _; isplitr
        swap; · iexact HS
        ipureintro; exact View.read_writes_of_cover _ _ _ _ _ (cover_accMiddle c t hc1 hc2 _ _ _ _ _)
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W1, bigSep_W1]
  exact body_at V c t

/-- What the launch hands the pass is the invariant before the first point. -/
theorem inv_in (c : Dev nD) : Pipeline.ΦA spec1 c ⊢ (dat V c).Φ 0 := by
  rw [show (dat V c).Φ 0 = accInv V c 0 (Nat.zero_le _) from rfl, accInv_zero V c 0 _ rfl]
  try exact BI.Entails.refl _

/-- After the last point the invariant gives the class's back: the accumulator's named contents are forgotten. -/
theorem inv_out (c : Dev nD) : (dat V c).Φ (Fin.last cfg1.N) ⊢ Pipeline.ΦA spec1 c := by
  rw [show (dat V c).Φ (Fin.last cfg1.N) = accInv V c (Fin.last cfg1.N).val (Nat.le_of_lt_succ (Fin.last cfg1.N).isLt) from rfl, PhiA_eq]
  exact accInv_some V c _ _

end Cert.KernelIdeal.AggregatePass

end
-- ==== Proof.Ideal.LayerRun.lean ====
import proofs.«165094_j38611755991575_2_alg».proof.Proof.Ideal.DegreePass
import proofs.«165094_j38611755991575_2_alg».proof.Proof.Ideal.AggregateBody
import proofs.«165094_j38611755991575_2_alg».proof.Proof.LibRegionRecord
import Idealize.ShloMosaic.Lib.Pipeline.Regions
import Idealize.ShloMosaic.Lib.Pipeline.Kit

/-!
# The whole run: the degree pass, then the aggregation pass

The program is the two passes one after the other and nothing else. Between them the core's unscoped buffers are, in
turn: as launched; after the degree pass, with the degree column and the scaled features at what its write-backs leave;
after the aggregation pass, with the result at what its write-backs leave. Neither pass writes an argument. So every
weakly fair execution terminates, the result ends at the aggregation pass's array and the arguments end as launched.
-/

set_option maxRecDepth 16384

noncomputable section

namespace Cert.KernelIdeal.LayerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the passes -/

/-- As launched. -/
abbrev W0 : Dev nD → Valuation τ sig (Elt F) := fun c b => m (c, b)
abbrev V0 : (c : Dev nD) → (b : Ref sig .tc) → Buf (Elt F) ((c : Thread nD τ).loc b) := fun c b => W0 m c b

/-- After the degree pass: its arrays at what the write-backs leave, every other buffer as before. -/
def W1 (c : Dev nD) : Valuation τ sig (Elt F) :=
  Pipeline.withArrays spec0 c (W0 m c) fun w => (DegreePass.dat (V0 m) c).arrAt w cfg0.N
theorem W1_arr (c : Dev nD) (w : Fin cfg0.W) :
    W1 m c (Proc.devRef .tc (Pipeline.arrRef spec0 w)) = (DegreePass.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b

/-- After the aggregation pass. -/
def W2 (c : Dev nD) : Valuation τ sig (Elt F) :=
  Pipeline.withArrays spec1 c (W1 m c) fun w => (AggregatePass.dat (V1 m) c).arrAt w cfg1.N
theorem W2_arr (c : Dev nD) (w : Fin cfg1.W) :
    W2 m c (Proc.devRef .tc (Pipeline.arrRef spec1 w)) = (AggregatePass.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b

/-! ## The arguments end as launched -/

theorem W1_main_arg0 (c : Dev nD) : W1 m c (Proc.devRef .tc main_arg0) = m ((c : Thread nD τ).loc main_arg0) :=
  (W1_arr m c 1).trans (((DegreePass.dat (V0 m) c).arrAt_in 1 rfl _).trans (DegreePass.A_eq (V0 m) c 1))
theorem W1_main_arg1 (c : Dev nD) : W1 m c (Proc.devRef .tc main_arg1) = m ((c : Thread nD τ).loc main_arg1) :=
  (W1_arr m c 0).trans (((DegreePass.dat (V0 m) c).arrAt_in 0 rfl _).trans (DegreePass.A_eq (V0 m) c 0))
theorem W1_main_arg2 (c : Dev nD) : W1 m c (Proc.devRef .tc main_arg2) = m ((c : Thread nD τ).loc main_arg2) :=
  W1_of_ne m c main_arg2 (by decide)

theorem W2_main_arg0 (c : Dev nD) : W2 m c (Proc.devRef .tc main_arg0) = m ((c : Thread nD τ).loc main_arg0) :=
  (W2_of_ne m c main_arg0 (by decide)).trans (W1_main_arg0 m c)
theorem W2_main_arg1 (c : Dev nD) : W2 m c (Proc.devRef .tc main_arg1) = m ((c : Thread nD τ).loc main_arg1) :=
  ((W2_arr m c 0).trans (((AggregatePass.dat (V1 m) c).arrAt_in 0 rfl _).trans (AggregatePass.A_eq (V1 m) c 0))).trans (W1_main_arg1 m c)
theorem W2_main_arg2 (c : Dev nD) : W2 m c (Proc.devRef .tc main_arg2) = m ((c : Thread nD τ).loc main_arg2) :=
  ((W2_arr m c 3).trans (((AggregatePass.dat (V1 m) c).arrAt_in 3 rfl _).trans (AggregatePass.A_eq (V1 m) c 3))).trans (W1_main_arg2 m c)

/-! ## The proof data family and the passes as segments -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => DegreePass.dat (V0 m) c
  | ⟨1, _⟩ => fun c => AggregatePass.dat (V1 m) c

abbrev 𝒱₀ : Variants := Variants.none
abbrev L : GSem nD τ sig → Finset Unit := fun _ => ∅
abbrev lv : GSem nD τ sig → Unit → ℕ := fun _ _ => 0

theorem no_tables_held (p : Fin 2) (c : Dev nD) :
    (BI.emp : sProp 𝕄) ⊢ Pipeline.prefHeld (Ix := Unit) (Name := ℕ) (U := UR sig nD τ) (Lvl := ℕ) (pcfgs (F := F) p).pre c (fun _ => fullShare) (adm (F := F) p).1 := by
  unfold Pipeline.prefHeld; rw [show (Finset.univ : Finset (Fin 0)) = ∅ from rfl, BI.bigSep_empty]; try exact BI.Entails.refl _

set_option backward.isDefEq.respectTransparency.types false in
/-- The degree pass as a segment, entered at the launch contents and left at `W1`. -/
def degreeSeg : Pipeline.RegionSeg (pcfgs (F := F)) adm (pdats m) () defs₀ 𝒱₀ L lv 0 :=
  RegionRecord.regionSeg (pcfgs (F := F)) adm (pdats m) 0 launch0.toP defs₀ 𝒱₀ (W0 m) (W1 m)
    (fun c => (DegreePass.body_obligation (V0 m) c).loose)
    (fun c => (pdats m 0 c).share_full fun _ => rfl) (fun _ _ => rfl) (fun _ => rfl)
    (fun _ _ => rfl) (fun _ k => k.elim0)
    (fun c w => (W1_arr m c w).symm)
    (fun c b hb => W1_of_ne m c b fun w e => hb (Finset.mem_image.mpr ⟨w, Finset.mem_univ _, e⟩))
    (fun c => by
      rw [show (pdats m 0 c).Φ 0 = Pipeline.ΦA spec0 c from rfl]
      iintro ⟨H, -⟩; iexact H)
    (fun c => by
      rw [show (pdats m 0 c).Φ (Fin.last _) = Pipeline.ΦA spec0 c from rfl]
      iintro H
      isplitl [H]; · iexact H
      iapply (no_tables_held 0 c); iempintro)

set_option backward.isDefEq.respectTransparency.types false in
/-- The aggregation pass as a segment, entered at `W1` and left at `W2`. -/
def aggregateSeg : Pipeline.RegionSeg (pcfgs (F := F)) adm (pdats m) () defs₀ 𝒱₀ L lv 1 :=
  RegionRecord.regionSeg (pcfgs (F := F)) adm (pdats m) 1 launch1.toP defs₀ 𝒱₀ (W1 m) (W2 m)
    (fun c => (AggregatePass.body_obligation (V1 m) c).loose)
    (fun c => (pdats m 1 c).share_full fun _ => rfl) (fun _ _ => rfl) (fun _ => rfl)
    (fun _ _ => rfl) (fun _ k => k.elim0)
    (fun c w => (W2_arr m c w).symm)
    (fun c b hb => W2_of_ne m c b fun w e => hb (Finset.mem_image.mpr ⟨w, Finset.mem_univ _, e⟩))
    (fun c => by
      refine BIBase.Entails.trans ?_ (AggregatePass.inv_in (V1 m) c)
      iintro ⟨H, -⟩; iexact H)
    (fun c => by
      refine BIBase.Entails.trans (AggregatePass.inv_out (V1 m) c) ?_
      iintro H
      isplitl [H]; · iexact H
      iapply (no_tables_held 1 c); iempintro)

abbrev segs : List (Pipeline.Seg (pcfgs (F := F)) adm (pdats m) () defs₀ 𝒱₀ L lv) :=
  [ .region (degreeSeg m), .region (aggregateSeg m) ]

theorem main_run (c : Dev nD) : main (F := F) c = Pipeline.Seg.run (segs m) :=
  main_segs adm (pdats m) () 𝒱₀ L lv (degreeSeg m) (aggregateSeg m) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes. -/
abbrev Tₙ (c : Dev nD) : sProp 𝕄 := iprop(StableHlo.held (c : Thread nD τ) (Pipeline.ucRefs τ sig) (W2 m c) ∗ ∃ r, prngReg c r)

set_option backward.isDefEq.respectTransparency.types false in
/-- THE RUN. From any memory with zero counters every weakly fair execution terminates, nothing faulting; the result
    ends at the aggregation pass's array and the three arguments end as launched. -/
theorem run_main : θ_run defs (onTc (τ := τ) (main (F := F))) ⟨m, fun _ => 0, ρ⟩ (fun r => ∀ c : Dev nD,
      r.2.mem ((c.tc : Thread nD τ).loc main_v1) = (AggregatePass.dat (V1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => RegionRecord.threadState (U := UR sig nD τ) (W0 m) c) (Tₙ := Tₙ m)
    (hch := ⟨fun _ => .rfl, fun _ => .rfl, fun c => by
      show RegionRecord.threadState (U := UR sig nD τ) (W2 m) c ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_arr m c 4),
       (h c _ (mem_uc main_arg0 (by decide))).trans (W2_main_arg0 m c),
       (h c _ (mem_uc main_arg1 (by decide))).trans (W2_main_arg1 m c),
       (h c _ (mem_uc main_arg2 (by decide))).trans (W2_main_arg2 m c)⟩)

end Cert.KernelIdeal.LayerRun

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibRealScalars.lean ====
/-
  Scalar facts on the extended reals at real arguments.

  What a few float words denote (1.0, -0.5, +inf); the reciprocal square root and the power -1/2 of a positive real,
  which are the same number 1/√x; a comparison's one-bit answer read back as the inequality it tested; and the two
  readings a finiteness-and-sign precondition needs entry by entry: an extended real whose absolute value max x (-x)
  tests below +∞ is a real number, and one that tests at least the zero word is nonnegative.
-/
import Idealize.ShloMosaic.PureOps.Ideal
import Idealize.ShloMosaic.PureOps.Ideal.Laws
import proofs.«165094_j38611755991575_2_alg».proof.Proof.LibRealSums

noncomputable section

namespace Cert.Lib.RealScalars

open Idealize.ShloMosaic Cert.Lib

/-- The word of 1.0 denotes the real 1. -/
theorem ofBits_one : Ideal.ofBits .f32 0x3F800000#32 = ((1 : ℝ) : EReal) := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- The word of +inf denotes +∞. -/
theorem ofBits_inf : Ideal.ofBits .f32 0x7F800000#32 = ⊤ := by
  simp [Ideal.ofBits, Ideal.ieee]

/-- The reciprocal square root of a positive real. -/
theorem rsqrt_pos (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- A positive real to the power -1/2 is the reciprocal of its square root. -/
theorem pow_neg_half (x : ℝ) (hx : 0 < x) :
    Ideal.pow (x : EReal) ((-(1 / 2) : ℝ) : EReal) = (((Real.sqrt x)⁻¹ : ℝ) : EReal) := by
  show ((Real.rpow x (-(1 / 2)) : ℝ) : EReal) = _
  congr 1
  show x ^ (-(1 / 2) : ℝ) = _
  rw [Real.rpow_neg hx.le, Real.sqrt_eq_rpow]

/-- A positive real is greater than zero, as the one-bit answer of the comparison. -/
theorem cmp_ogt_pos (x : ℝ) (hx : 0 < x) : Ideal.cmp .ogt (x : EReal) 0 = 1#1 := by
  show BitVec.ofBool (decide ((0 : EReal) < (x : EReal))) = 1#1
  rw [decide_eq_true (by exact_mod_cast hx)]
  rfl

/-- A one-bit answer that is 1 came from a true test. -/
theorem of_ofBool_eq_one {b : Bool} (h : BitVec.ofBool b = 1#1) : b = true := by
  cases b
  · exact absurd h (by decide)
  · rfl

/-- An entry whose absolute value tests below +∞ is a real number. -/
theorem real_of_abs_lt (x : EReal) (h : Ideal.cmp .olt (max x (-x)) (Ideal.ofBits .f32 0x7F800000#32) = 1#1) :
    ∃ r : ℝ, x = (r : EReal) := by
  have h1 : decide (max x (-x) < Ideal.ofBits .f32 0x7F800000#32) = true := of_ofBool_eq_one h
  rw [ofBits_inf] at h1
  exact RealSums.exists_real_of_max_neg_lt_top (of_decide_eq_true h1)

/-- An entry that tests at least zero is nonnegative. -/
theorem nonneg_of_ge (x : EReal) (h : Ideal.cmp .oge x (Ideal.ofBits .f32 0x00000000#32) = 1#1) : 0 ≤ x := by
  have h1 : decide (Ideal.ofBits .f32 0x00000000#32 ≤ x) = true := of_ofBool_eq_one h
  rw [Ideal.ofBits_zero_f32] at h1
  exact of_decide_eq_true h1

end Cert.Lib.RealScalars

end
-- ==== Proof.LayerPayloads.lean ====
/-
  The arithmetic of a normalized graph-convolution layer, computed in row blocks, read entry by entry at the ideal values.

  The degree pass turns a block of rows of the adjacency matrix into the column d(r) = 1/√(1 + Σ_j A(r, j)) and scales the
  block's rows of the features by it. The layer pass seeds an accumulator with scaled feature rows, adds to it, for each
  chunk of 512 columns of the adjacency rows, the product of the chunk with the matching 512 scaled feature rows, and at
  the end scales the accumulator's rows by the column d, multiplies by the weights and keeps the larger of each entry
  and zero. Each step is stated here at an entry given by its row and column.
-/
import proofs.«165094_j38611755991575_2_alg».proof.Proof.Gen.KernelIdeal.Skeleton
import proofs.«165094_j38611755991575_2_alg».proof.Proof.LibRowLayout
import proofs.«165094_j38611755991575_2_alg».proof.Proof.LibPlainDot
import proofs.«165094_j38611755991575_2_alg».proof.Proof.LibRealScalars

noncomputable section

namespace Cert.KernelIdeal.LayerPayloads

open Idealize.ShloMosaic Idealize.ShloMosaic.ValueIdx Cert.KernelIdeal Cert.KernelIdeal.Gen
open Cert.KernelIdeal.MvnKernel
open scoped BigOperators

/-- The reciprocal square root of a vector, read at an index. -/
theorem rsqrt_apply {s : Shape} {φ : FTy} (x : FVec Ideal s φ) (i : s.Idx) : rsqrt x i = Ideal.rsqrt (x i) := rfl

/-- The degree column: at row `r`, the reciprocal square root of one plus the sum of the row. -/
theorem degree_apply (v0 : FVec Ideal S512x8192 .f32) (r : Fin 512) :
    k0_pay1 (F := Ideal) v0 (ix2 r (0 : Fin 1)) = Ideal.rsqrt ((∑ j : Fin 8192, v0 (ix2 r j)) + 1) := by
  unfold k0_pay1
  refine (rsqrt_apply _ _).trans (congrArg Ideal.rsqrt ?_)
  refine (addf_apply _ _ _).trans ?_
  refine congrArg₂ (· + ·) ?_ ?_
  · refine (shapeCast_a_a1_apply _ shapeCasts_S512_S512x1 r (0 : Fin 1)).trans ?_
    exact multiReduction_add_row v0 0x00000000#32 reduces_S512x8192_S512 (.inl rfl) rfl r
  · refine (broadcast_apply _ _).trans ?_
    exact Cert.Lib.RealScalars.ofBits_one.trans EReal.coe_one

/-- The scaled features: entry `(r, f)` of the feature block times the degree column at row `r`. -/
theorem scaled_apply (v0 : FVec Ideal S512x8192 .f32) (v7 : FVec Ideal S512x512 .f32) (r f : Fin 512) :
    k0_pay2 (F := Ideal) v0 v7 (ix2 r f) = v7 (ix2 r f) * k0_pay1 (F := Ideal) v0 (ix2 r (0 : Fin 1)) := by
  unfold k0_pay2
  refine (truncf_apply (ψ := .bf16) _ bitsLt_bf16_f32 _).trans ?_
  refine (mulf_apply _ _ _).trans ?_
  exact congrArg (v7 (ix2 r f) * ·) (broadcastTo_a1_ab_apply _ broadcasts_S512x1_S512x512 r f)

/-- The seed of the accumulator is the loaded rows, entry by entry. -/
theorem seed_apply (v22 : FVec Ideal S1024x512 .bf16) (j : S1024x512.Idx) :
    k1_pay1 (F := Ideal) v22 j = v22 j := by
  unfold k1_pay1
  rw [shapeCast_self, shapeCast_self]
  rfl

/-- Row `r` of the left operand and column `f` of the right operand, at contraction position `q`, for the output entry
    `(r, f)`. -/
theorem rowIdx_ix2 {R K C : ℕ} (r : Fin R) (f : Fin C) (q : Fin K) :
    Cert.Lib.PlainDot.rowIdx (K := K) (ix2 r f) q = ix2 r q :=
  funext fun a => by
    match a with
    | ⟨0, _⟩ => rfl
    | ⟨1, _⟩ => rfl
theorem colIdx_ix2 {R K C : ℕ} (r : Fin R) (f : Fin C) (q : Fin K) :
    Cert.Lib.PlainDot.colIdx (R := R) (K := K) (ix2 r f) q = ix2 q f :=
  funext fun a => by
    match a with
    | ⟨0, _⟩ => rfl
    | ⟨1, _⟩ => rfl

/-- The layer's matrix product into the zero accumulator, at entry `(r, f)`: the sum over the contraction position. -/
theorem product_apply {φ₁ φ₂ : FTy} (x : FVec Ideal S1024x512 φ₁) (w : FVec Ideal S512x512 φ₂) (r : Fin 1024) (f : Fin 512) :
    matmul dot_S1024x512_S512x512_S1024x512_1_0_0_1_n_n none x w (constant (F := Ideal) S1024x512 .f32 0x00000000#32) (ix2 r f)
      = ∑ q : Fin 512, x (ix2 r q) * w (ix2 q f) := by
  refine (Cert.Lib.PlainDot.matmul_zero_apply (R := 1024) (K := 512) (C := 512)
    dot_S1024x512_S512x512_S1024x512_1_0_0_1_n_n rfl none x w (ix2 r f)).trans ?_
  unfold Cert.Lib.PlainDot.mm
  exact Finset.sum_congr rfl fun q _ => by rw [rowIdx_ix2, colIdx_ix2]

/-- One accumulation step: the accumulator's entry `(r, f)` plus the product of row `r` of the adjacency chunk with
    column `f` of the scaled feature rows. -/
theorem step_apply (v5 : FVec Ideal S1024x512 .f32) (v8 : FVec Ideal S512x512 .bf16) (v10 : FVec Ideal S1024x512 .f32)
    (r : Fin 1024) (f : Fin 512) :
    k1_pay2 (F := Ideal) v5 v8 v10 (ix2 r f) = v10 (ix2 r f) + ∑ q : Fin 512, v5 (ix2 r q) * v8 (ix2 q f) := by
  unfold k1_pay2
  rw [shapeCast_self, shapeCast_self]
  refine (addf_apply _ _ _).trans (congrArg (v10 (ix2 r f) + ·) ?_)
  refine (product_apply _ _ r f).trans ?_
  exact Finset.sum_congr rfl fun q _ => congrArg (· * v8 (ix2 q f)) (truncf_apply (ψ := .bf16) v5 bitsLt_bf16_f32 (ix2 r q))

/-- The output: the accumulator's row `r` scaled by the degree column at `r`, times column `o` of the weights, and the
    larger of that and zero. -/
theorem output_apply (v19 : FVec Ideal S1024x512 .f32) (v20 : FVec Ideal S1024x1 .f32) (v25 : FVec Ideal S512x512 .f32)
    (r : Fin 1024) (o : Fin 512) :
    k1_pay3 (F := Ideal) v19 v20 v25 (ix2 r o)
      = max (∑ f : Fin 512, (v19 (ix2 r f) * v20 (ix2 r (0 : Fin 1))) * v25 (ix2 f o)) 0 := by
  unfold k1_pay3
  rw [shapeCast_self]
  refine (maximumf_apply _ _ _).trans ?_
  refine congrArg₂ max ?_ ((broadcast_apply _ _).trans Ideal.ofBits_zero_f32)
  refine (product_apply _ _ r o).trans ?_
  refine Finset.sum_congr rfl fun f _ => congrArg₂ (· * ·) ?_ (truncf_apply (ψ := .bf16) v25 bitsLt_bf16_f32 (ix2 f o))
  refine (truncf_apply (ψ := .bf16) _ bitsLt_bf16_f32 _).trans ?_
  refine (mulf_apply _ _ _).trans ?_
  exact congrArg (v19 (ix2 r f) * ·) (broadcastTo_a1_ab_apply v20 broadcasts_S1024x1_S1024x512 r f)

end Cert.KernelIdeal.LayerPayloads

end
-- ==== Proof.Spec.lean ====
import Idealize.ShloMosaic.PureOps.Ideal
import Idealize.ShloMosaic.Lib.ValueIdx

/-!
# A graph-convolution layer with symmetric degree normalisation, as one function of its arguments

Over the extended reals. For an adjacency matrix `adj` on 8192 nodes, node features `x` (8192 × 512) and weights
`w` (512 × 512): the degree of node `i` counts its self loop, `deg i = (∑ j, adj i j) + 1`; `rdeg i` is the
reciprocal square root of the degree; the scaled features are `scaled k f = x k f · rdeg k`; the aggregate of node
`i` is its own scaled row plus the adjacency-weighted sum of all scaled rows, scaled once more by `rdeg i`; the
layer's output is the positive part of the aggregate times `w`.

When every degree is a positive real and every entry is real this is
`max 0 ((D^(-1/2) (adj + I) D^(-1/2) x) w)` with `D` the diagonal matrix of the degrees.
-/

noncomputable section

namespace GcnLayer

open Idealize.ShloMosaic Idealize.ShloMosaic.ValueIdx

abbrev SX : Shape := ⟨2, ![8192, 512]⟩
abbrev SA : Shape := ⟨2, ![8192, 8192]⟩
abbrev SW : Shape := ⟨2, ![512, 512]⟩

variable (x : FVec Ideal SX .f32) (adj : FVec Ideal SA .f32) (w : FVec Ideal SW .f32)

/-- The degree of node `i`, its self loop counted. -/
def deg (i : Fin 8192) : EReal := (∑ j : Fin 8192, adj (ix2 i j)) + 1

/-- The reciprocal square root of the degree. -/
def rdeg (i : Fin 8192) : EReal := Ideal.rsqrt (deg adj i)

/-- Node `k`'s features scaled by the reciprocal square root of its degree. -/
def scaled (k : Fin 8192) (f : Fin 512) : EReal := x (ix2 k f) * rdeg adj k

/-- Node `i`'s aggregate: its own scaled row plus the adjacency-weighted sum of all scaled rows, scaled by the
    reciprocal square root of its degree. -/
def agg (i : Fin 8192) (f : Fin 512) : EReal :=
  (scaled x adj i f + ∑ k : Fin 8192, adj (ix2 i k) * scaled x adj k f) * rdeg adj i

/-- The layer's output at node `i`, output feature `o`. -/
def outAt (i : Fin 8192) (o : Fin 512) : EReal := max (∑ f : Fin 512, agg x adj i f * w (ix2 f o)) 0

/-- The layer's output as an array. -/
def out : FVec Ideal SX .f32 := fun j => outAt x adj w (j 0) (j 1)

theorem out_ix2 (i : Fin 8192) (o : Fin 512) : out x adj w (ix2 i o) = outAt x adj w i o := rfl

end GcnLayer

end
-- ==== Proof.Ideal.DegreeValue.lean ====
/-
  What the degree pass leaves in its two output arrays, entry by entry.

  The pass walks the 8192 rows in 16 blocks of 512. At block t it writes rows 512·t … 512·t + 511 of the degree column
  and of the scaled features, each entry a function of the same rows of the adjacency matrix and of the features alone.
  The 16 blocks tile both arrays, so after the pass the column holds, at row r, the reciprocal square root of the
  degree of r, and the scaled features hold, at (r, f), the feature times that.
-/
import proofs.«165094_j38611755991575_2_alg».proof.Proof.Ideal.DegreePass
import proofs.«165094_j38611755991575_2_alg».proof.Proof.LayerPayloads
import proofs.«165094_j38611755991575_2_alg».proof.Proof.Spec
import Idealize.ShloMosaic.Lib.Pipeline.Value

noncomputable section

namespace Cert.KernelIdeal.DegreeValue

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Every window of the pass moves with the grid point: block `t` on the rows, block 0 on the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The degree column as an array: at row `r`, the reciprocal square root of the degree of `r`. -/
def colG (A : FVec Ideal S8192x8192 .f32) : S8192x1.Idx → Elt Ideal .f32 := fun i => GcnLayer.rdeg A (i (0 : Fin 2))

/-- The scaled features as an array. -/
def scaledG (X : FVec Ideal S8192x512 .f32) (A : FVec Ideal S8192x8192 .f32) : S8192x512.Idx → Elt Ideal .bf16 :=
  fun i => GcnLayer.scaled X A (i (0 : Fin 2)) (i (1 : Fin 2))

/-- A row of a block that is row `r` of the adjacency matrix gives the degree column at `r`. -/
theorem col_block (a : FVec Ideal S512x8192 .f32) (A : FVec Ideal S8192x8192 .f32) (p : Fin 512) (r : Fin 8192)
    (ha : ∀ j : Fin 8192, a (ix2 p j) = A (ix2 r j)) :
    k0_pay1 (F := Ideal) a (ix2 p (0 : Fin 1)) = GcnLayer.rdeg A r := by
  rw [LayerPayloads.degree_apply]
  unfold GcnLayer.rdeg GcnLayer.deg
  exact congrArg (fun s => Ideal.rsqrt (s + 1)) (Finset.sum_congr rfl fun j _ => ha j)

/-- and, with the feature block's entry `(p, f)` being entry `(r, g)` of the features, the scaled features at `(r, g)`. -/
theorem scaled_block (a : FVec Ideal S512x8192 .f32) (x : FVec Ideal S512x512 .f32) (A : FVec Ideal S8192x8192 .f32)
    (X : FVec Ideal S8192x512 .f32) (p f : Fin 512) (r : Fin 8192) (g : Fin 512)
    (ha : ∀ j : Fin 8192, a (ix2 p j) = A (ix2 r j)) (hx : x (ix2 p f) = X (ix2 r g)) :
    k0_pay2 (F := Ideal) a x (ix2 p f) = GcnLayer.scaled X A r g := by
  rw [LayerPayloads.scaled_apply, col_block a A p r ha, hx]
  rfl

/-- What point `t` writes back to the degree column is block `t` of `colG` of the adjacency matrix. -/
theorem flushed_col (c : Dev nD) (t : Fin cfg0.N) :
    (DegreePass.dat (F := Ideal) V c).flushed 2 t
      = ((cfg0.win 2).blk t).view.read (Elt Ideal) (colG (V c main_arg1)) := by
  show (cfg0.win 2).cut (grid0.coords t) ((DegreePass.dat (F := Ideal) V c).after 2 t) = _
  rw [DegreePass.after_col]
  unfold DegreePass.colOut
  rw [View.canon_unit_zero hz]
  simp only [View.ld_unit_zero (S := S512x8192) hz]
  obtain ⟨e00, e01, e10, e11, e20, e21, e30, e31⟩ := idx_facts t
  funext j
  have hj0 : (j 0).val < 512 := (j 0).isLt
  have hj1 : (j 1).val < 1 := (j 1).isLt
  have hidx : (cfg0.win 2).xinj (grid0.coords t) j = ix2 (⟨(j 0).val, hj0⟩ : Fin 512) (0 : Fin 1) :=
    funext fun a => Fin.ext (by
      match a with
      | ⟨0, _⟩ => rfl
      | ⟨1, _⟩ => show (j 1).val = 0; omega)
  show k0_pay1 (F := Ideal) (DegreePass.blockAt V c 0 t) ((cfg0.win 2).xinj (grid0.coords t) j)
    = colG (V c main_arg1) (((cfg0.win 2).blk t).view.emb j)
  rw [hidx]
  unfold colG
  refine col_block (DegreePass.blockAt V c 0 t) (V c main_arg1) ⟨(j 0).val, hj0⟩ _ fun k => ?_
  show V c main_arg1 (((cfg0.win 0).blk t).view.emb (ix2 (⟨(j 0).val, hj0⟩ : Fin 512) k)) = _
  congr 1; funext a; apply Fin.ext
  match a with
  | ⟨0, _⟩ => show win0_0.index t (0 : Fin 2) * 512 + 1 * (j 0).val = win0_2.index t (0 : Fin 2) * 512 + 1 * (j 0).val; omega
  | ⟨1, _⟩ => show win0_0.index t (1 : Fin 2) * 8192 + 1 * k.val = k.val; omega

/-- What point `t` writes back to the scaled features is block `t` of `scaledG` of the features and the adjacency
    matrix. -/
theorem flushed_scaled (c : Dev nD) (t : Fin cfg0.N) :
    (DegreePass.dat (F := Ideal) V c).flushed 3 t
      = ((cfg0.win 3).blk t).view.read (Elt Ideal) (scaledG (V c main_arg0) (V c main_arg1)) := by
  show (cfg0.win 3).cut (grid0.coords t) ((DegreePass.dat (F := Ideal) V c).after 3 t) = _
  rw [DegreePass.after_scaled]
  unfold DegreePass.scaledOut
  rw [View.canon_unit_zero hz]
  simp only [View.ld_unit_zero (S := S512x8192) hz, View.ld_unit_zero (S := S512x512) hz]
  obtain ⟨e00, e01, e10, e11, e20, e21, e30, e31⟩ := idx_facts t
  funext j
  have hj0 : (j 0).val < 512 := (j 0).isLt
  have hj1 : (j 1).val < 512 := (j 1).isLt
  have hidx : (cfg0.win 3).xinj (grid0.coords t) j = ix2 (⟨(j 0).val, hj0⟩ : Fin 512) (⟨(j 1).val, hj1⟩ : Fin 512) :=
    funext fun a => Fin.ext (by
      match a with
      | ⟨0, _⟩ => rfl
      | ⟨1, _⟩ => rfl)
  show k0_pay2 (F := Ideal) (DegreePass.blockAt V c 0 t) (DegreePass.blockAt V c 1 t) ((cfg0.win 3).xinj (grid0.coords t) j)
    = scaledG (V c main_arg0) (V c main_arg1) (((cfg0.win 3).blk t).view.emb j)
  rw [hidx]
  unfold scaledG
  refine scaled_block (DegreePass.blockAt V c 0 t) (DegreePass.blockAt V c 1 t) (V c main_arg1) (V c main_arg0)
    ⟨(j 0).val, hj0⟩ ⟨(j 1).val, hj1⟩ _ _ (fun k => ?_) ?_
  · show V c main_arg1 (((cfg0.win 0).blk t).view.emb (ix2 (⟨(j 0).val, hj0⟩ : Fin 512) k)) = _
    congr 1; funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 8192 + 1 * k.val = k.val; omega
  · show V c main_arg0 (((cfg0.win 1).blk t).view.emb (ix2 (⟨(j 0).val, hj0⟩ : Fin 512) (⟨(j 1).val, hj1⟩ : Fin 512))) = _
    congr 1; funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 512 + 1 * (j 1).val = win0_3.index t (1 : Fin 2) * 512 + 1 * (j 1).val; omega

/-- An index of the degree column is in point `t`'s block iff each coordinate is in the block's range on its axis. -/
theorem mem_blk_col (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v0_0).slice (win0_2.rect t)).set ↔ _
  rw [View.set_slice_whole, Rect.mem_set_unit]
  exact Iff.rfl

/-- and likewise for the scaled features. -/
theorem mem_blk_scaled (t : Fin cfg0.N) (i : S8192x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v0_1).slice (win0_3.rect t)).set ↔ _
  rw [View.set_slice_whole, Rect.mem_set_unit]
  exact Iff.rfl

/-- Row `r` of the degree column is written by the point `r / 512`. -/
theorem cover_col (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by omega⟩, rfl⟩
  obtain ⟨e00, e01, e10, e11, e20, e21, e30, e31⟩ := idx_facts t
  refine ⟨t, flush0_2 t, ?_⟩
  rw [mem_blk_col]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1 ≤ (i 1).val ∧ (i 1).val < win0_2.index t (1 : Fin 2) * 1 + 1
    omega

/-- Row `r` of the scaled features is written by the point `r / 512`. -/
theorem cover_scaled (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 16 := N_0
  obtain ⟨t, ht⟩ : ∃ t : Fin cfg0.N, t.val = (i 0).val / 512 := ⟨⟨(i 0).val / 512, by omega⟩, rfl⟩
  obtain ⟨e00, e01, e10, e11, e20, e21, e30, e31⟩ := idx_facts t
  refine ⟨t, flush0_3 t, ?_⟩
  rw [mem_blk_scaled]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 512 ≤ (i 1).val ∧ (i 1).val < win0_3.index t (1 : Fin 2) * 512 + 512
    omega

/-- After the pass the degree column holds `colG` of the adjacency matrix as the pass found it, -/
theorem col_final (c : Dev nD) : (DegreePass.dat (F := Ideal) V c).arrAt 2 cfg0.N = colG (V c main_arg1) :=
  (DegreePass.dat (F := Ideal) V c).arrAt_eq_of_cover 2 (colG (V c main_arg1)) (fun t _ => flushed_col V c t) cover_col

/-- and the scaled features hold `scaledG` of the features and the adjacency matrix as the pass found them. -/
theorem scaled_final (c : Dev nD) :
    (DegreePass.dat (F := Ideal) V c).arrAt 3 cfg0.N = scaledG (V c main_arg0) (V c main_arg1) :=
  (DegreePass.dat (F := Ideal) V c).arrAt_eq_of_cover 3 (scaledG (V c main_arg0) (V c main_arg1))
    (fun t _ => flushed_scaled V c t) cover_scaled

/-- The degree column after the pass, at row `r`. -/
theorem col_final_apply (c : Dev nD) (r : Fin 8192) :
    (DegreePass.dat (F := Ideal) V c).arrAt 2 cfg0.N (ix2 r (0 : Fin 1)) = GcnLayer.rdeg (V c main_arg1) r := by
  rw [col_final]; rfl

/-- The scaled features after the pass, at `(r, f)`. -/
theorem scaled_final_apply (c : Dev nD) (r : Fin 8192) (f : Fin 512) :
    (DegreePass.dat (F := Ideal) V c).arrAt 3 cfg0.N (ix2 r f) = GcnLayer.scaled (V c main_arg0) (V c main_arg1) r f := by
  rw [scaled_final]; rfl

end Cert.KernelIdeal.DegreeValue

end
-- ==== Proof.Ideal.AggregatePieces.lean ====
import proofs.«165094_j38611755991575_2_alg».proof.Proof.Ideal.AggregatePass
import Idealize.ShloMosaic.Lib.Pipeline.Value
import Idealize.ShloMosaic.Lib.ValueIdx
import Idealize.ShloMosaic.Lib.Tactic

/-!
# The aggregation pass: what each case leaves, as arithmetic of the point's blocks

Each of the three cases of a grid point ends with one store that covers the whole accumulator (and, at chunk 15, one
that covers the whole result block), so what the case leaves is that store's payload: at chunk 0 the seed — the row
block's own 1024 rows of the scaled features — plus the product of the adjacency block with the chunk's 512 rows of the
scaled features; at a later chunk what the accumulator held plus that product; at chunk 15, in the result block, the
output arithmetic of the accumulator so updated, the degree column block and the weights.
-/

set_option maxRecDepth 16384

noncomputable section

namespace Cert.KernelIdeal.AggregateValue

open Cert.KernelIdeal Cert.KernelIdeal.Gen Cert.KernelIdeal.AggregatePass
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

theorem hz : (![0, 0] : Fin 2 → Nat) = fun _ => 0 := funext fun a => by fin_cases a <;> rfl

/-- The 512 rows of the scaled features that belong to the point's column chunk. -/
abbrev chunkRows (i : grid1.Coords) (x1 : Vec F S8192x512 .bf16) : Vec F S512x512 .bf16 :=
  View.ld x1 (Rect.unit (s := S8192x512) (k1_off2 i) S512x512.size (k1_off2_inb i))

/-- The 1024 rows of the scaled features that belong to the point's row block. -/
abbrev ownRows (i : grid1.Coords) (h : k1_cond1 i = 1#1) (x1 : Vec F S8192x512 .bf16) : Vec F S1024x512 .bf16 :=
  View.ld x1 (Rect.unit (s := S8192x512) (k1_off1 i) S1024x512.size (k1_off1_inb i h))

/-- At chunk 0 the accumulator ends at the seed, the row block's own scaled rows, plus the chunk's product. -/
theorem accFirst_eq (c : Dev nD) (t : Fin cfg1.N) (hc1 : k1_cond1 (grid1.coords t) = 1#1) (hc2 : ¬ k1_cond2 (grid1.coords t) = 1#1)
    (x0 : Vec F S1024x512 .f32) (x1 : Vec F S8192x512 .bf16) (x2 : Vec F S1024x1 .f32) (x3 : Vec F S512x512 .f32) :
    accFirst c t hc1 hc2 x0 x1 x2 x3
      = k1_pay2 x0 (chunkRows (grid1.coords t) x1) (k1_pay1 (ownRows (grid1.coords t) hc1 x1)) := by
  unfold accFirst
  rw [View.read_writes_eq_canon _ _ _ (cover_accFirst c t hc1 hc2 x0 x1 x2 x3)]
  unfold runFirst
  dsimp only
  sl_unfold_run_names
  rw [View.canon_cons_unit_zero (S := S1024x512) hz, View.readCov_unit_zero (S := S1024x512) _ hz]
  simp only [View.readAt_eq_ld, (hAdj t).read_unread, (hScaled t).read_unread, View.ld_unit_zero (S := S1024x512) hz]

/-- At a chunk strictly between the accumulator ends at what it held plus the chunk's product. -/
theorem accMiddle_eq (c : Dev nD) (t : Fin cfg1.N) (hc1 : ¬ k1_cond1 (grid1.coords t) = 1#1) (hc2 : ¬ k1_cond2 (grid1.coords t) = 1#1)
    (x0 : Vec F S1024x512 .f32) (x1 : Vec F S8192x512 .bf16) (x2 : Vec F S1024x1 .f32) (x3 : Vec F S512x512 .f32) (xs : Vec F S1024x512 .f32) :
    accMiddle c t hc1 hc2 x0 x1 x2 x3 xs = k1_pay2 x0 (chunkRows (grid1.coords t) x1) xs := by
  unfold accMiddle
  rw [View.read_writes_eq_canon _ _ _ (cover_accMiddle c t hc1 hc2 x0 x1 x2 x3 xs)]
  unfold runMiddle
  dsimp only
  sl_unfold_run_names
  rw [View.canon_unit_zero (S := S1024x512) hz]
  simp only [View.readAt_eq_ld, (hAdj t).read_unread, (hScaled t).read_unread, (Memref.isWhole_whole cc1_scratch0).read_unread,
    View.ld_unit_zero (S := S1024x512) hz]

/-- At chunk 15 likewise, -/
theorem accLast_eq (c : Dev nD) (t : Fin cfg1.N) (hc1 : ¬ k1_cond1 (grid1.coords t) = 1#1) (hc2 : k1_cond2 (grid1.coords t) = 1#1)
    (x0 : Vec F S1024x512 .f32) (x1 : Vec F S8192x512 .bf16) (x2 : Vec F S1024x1 .f32) (x3 : Vec F S512x512 .f32) (xs : Vec F S1024x512 .f32) :
    accLast c t hc1 hc2 x0 x1 x2 x3 xs = k1_pay2 x0 (chunkRows (grid1.coords t) x1) xs := by
  unfold accLast
  rw [View.read_writes_eq_canon _ _ _ (cover_accLast c t hc1 hc2 x0 x1 x2 x3 xs)]
  unfold runLast
  dsimp only
  sl_unfold_run_names
  rw [View.canon_unit_zero (S := S1024x512) hz]
  simp only [View.readAt_eq_ld, (hAdj t).read_unread, (hScaled t).read_unread, (Memref.isWhole_whole cc1_scratch0).read_unread,
    View.ld_unit_zero (S := S1024x512) hz]

/-- and the result block is the output arithmetic of that accumulator, the degree column block and the weights. -/
theorem resLast_eq (c : Dev nD) (t : Fin cfg1.N) (hc1 : ¬ k1_cond1 (grid1.coords t) = 1#1) (hc2 : k1_cond2 (grid1.coords t) = 1#1)
    (x0 : Vec F S1024x512 .f32) (x1 : Vec F S8192x512 .bf16) (x2 : Vec F S1024x1 .f32) (x3 : Vec F S512x512 .f32) (xs : Vec F S1024x512 .f32) :
    resLast c t hc1 hc2 x0 x1 x2 x3 xs = k1_pay3 (k1_pay2 x0 (chunkRows (grid1.coords t) x1) xs) x2 x3 := by
  unfold resLast
  rw [View.read_writes_eq_canon _ _ _ (cover_resLast c t hc1 hc2 x0 x1 x2 x3 xs)]
  unfold runLast
  dsimp only
  sl_unfold_run_names
  rw [View.canon_unit_zero (S := S1024x512) hz, View.readCov_unit_zero (S := S1024x512) _ hz]
  simp only [View.readAt_eq_ld, (hAdj t).read_unread, (hScaled t).read_unread, (hCol t).read_unread, (hW t).read_unread,
    (Memref.isWhole_whole cc1_scratch0).read_unread,
    View.ld_unit_zero (S := S1024x512) hz, View.ld_unit_zero (S := S1024x1) hz, View.ld_unit_zero (S := S512x512) hz]

end Cert.KernelIdeal.AggregateValue

end
-- ==== Proof.Ideal.AggregateBlocks.lean ====
import proofs.«165094_j38611755991575_2_alg».proof.Proof.Ideal.AggregatePass
import Idealize.ShloMosaic.Lib.Pipeline.Value
import Idealize.ShloMosaic.Lib.ValueIdx
import Idealize.ShloMosaic.Lib.Tactic
import proofs.«165094_j38611755991575_2_alg».proof.Proof.Ideal.AggregatePieces

/-!
# The aggregation pass: where each block sits in its array

Grid point `t` is row block `t / 16` and column chunk `t % 16`. The adjacency window's block at `t` is rows
`1024 (t / 16) …`, columns `512 (t % 16) …` of the adjacency matrix; the degree column window's block is rows
`1024 (t / 16) …` of the column; the scaled-feature and weight windows hold their whole arrays at every point. Inside the
body, the chunk's rows of the scaled features are rows `512 (t % 16) …` and the row block's own rows are rows
`1024 (t / 16) …`. Each statement reads a block at an entry as its array at the entry's place.
-/

set_option maxRecDepth 16384

noncomputable section

namespace Cert.KernelIdeal.AggregateValue

open Cert.KernelIdeal Cert.KernelIdeal.Gen Cert.KernelIdeal.AggregatePass
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the buffers' contents when the pass is entered
variable (V : (c : Dev nD) → (b : Ref sig .tc) → Buf (Elt F) ((c : Thread nD τ).loc b))

/-- Where each window's block sits at a grid point, and which rows of the scaled features the body reads there: point
    `t` is row block `t / 16`, column chunk `t % 16`. -/
theorem idx_facts : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = 0
    ∧ k1_off1 (grid1.coords t) = ![1024 * (t.val / 16), 0] ∧ k1_off2 (grid1.coords t) = ![512 * (t.val % 16), 0] :=
  (by decide +kernel : ∀ t : Fin grid1.N, _)

/-- The adjacency block at a point: rows `1024 (t / 16) + r`, columns `512 (t % 16) + q` of the adjacency matrix. -/
theorem adjBlock_apply (c : Dev nD) (t : Fin cfg1.N) (r : Fin 1024) (q : Fin 512) (k : S8192x8192.Idx)
    (hk0 : (k 0).val = 1024 * (t.val / 16) + r.val) (hk1 : (k 1).val = 512 * (t.val % 16) + q.val) :
    (blockAt V c 0 t : Vec F S1024x512 .f32) (ix2 r q) = (V c main_arg1 : S8192x8192.Idx → Elt F .f32) k := by
  obtain ⟨e0, e1, -⟩ := idx_facts t
  unfold blockAt
  rw [View.read_apply]
  show V c main_arg1 _ = V c main_arg1 k
  congr 1
  funext a
  apply Fin.ext
  match a with
  | ⟨0, _⟩ => show win1_0.index t (0 : Fin 2) * 1024 + 1 * r.val = (k 0).val; rw [e0, hk0]; omega
  | ⟨1, _⟩ => show win1_0.index t (1 : Fin 2) * 512 + 1 * q.val = (k 1).val; rw [e1, hk1]; omega

/-- The scaled-feature window holds the whole array at every point. -/
theorem scaledBlock_apply (c : Dev nD) (t : Fin cfg1.N) (k : Fin 8192) (f : Fin 512) :
    (blockAt V c 1 t : Vec F S8192x512 .bf16) (ix2 k f) = (V c main_v0_1 : S8192x512.Idx → Elt F .bf16) (ix2 k f) := by
  obtain ⟨-, -, e0, e1, -⟩ := idx_facts t
  unfold blockAt
  rw [View.read_apply]
  show V c main_v0_1 _ = V c main_v0_1 (ix2 k f)
  congr 1
  funext a
  apply Fin.ext
  match a with
  | ⟨0, _⟩ => show win1_1.index t (0 : Fin 2) * 8192 + 1 * k.val = k.val; rw [e0]; omega
  | ⟨1, _⟩ => show win1_1.index t (1 : Fin 2) * 512 + 1 * f.val = f.val; rw [e1]; omega

/-- The degree column block at a point: rows `1024 (t / 16) + r` of the degree column. -/
theorem colBlock_apply (c : Dev nD) (t : Fin cfg1.N) (r : Fin 1024) (k : S8192x1.Idx)
    (hk0 : (k 0).val = 1024 * (t.val / 16) + r.val) :
    (blockAt V c 2 t : Vec F S1024x1 .f32) (ix2 r (0 : Fin 1)) = (V c main_v0_0 : S8192x1.Idx → Elt F .f32) k := by
  obtain ⟨-, -, -, -, e0, e1, -⟩ := idx_facts t
  unfold blockAt
  rw [View.read_apply]
  show V c main_v0_0 _ = V c main_v0_0 k
  congr 1
  funext a
  apply Fin.ext
  match a with
  | ⟨0, _⟩ => show win1_2.index t (0 : Fin 2) * 1024 + 1 * r.val = (k 0).val; rw [e0, hk0]; omega
  | ⟨1, _⟩ => show win1_2.index t (1 : Fin 2) * 1 + 1 * 0 = (k 1).val; have hk1 : (k 1).val < 1 := (k 1).isLt; rw [e1]; omega

/-- The weight window holds the whole array at every point. -/
theorem weightBlock_apply (c : Dev nD) (t : Fin cfg1.N) (f o : Fin 512) :
    (blockAt V c 3 t : Vec F S512x512 .f32) (ix2 f o) = (V c main_arg2 : S512x512.Idx → Elt F .f32) (ix2 f o) := by
  obtain ⟨-, -, -, -, -, -, e0, e1, -⟩ := idx_facts t
  unfold blockAt
  rw [View.read_apply]
  show V c main_arg2 _ = V c main_arg2 (ix2 f o)
  congr 1
  funext a
  apply Fin.ext
  match a with
  | ⟨0, _⟩ => show win1_3.index t (0 : Fin 2) * 512 + 1 * f.val = f.val; rw [e0]; omega
  | ⟨1, _⟩ => show win1_3.index t (1 : Fin 2) * 512 + 1 * o.val = o.val; rw [e1]; omega

/-- The chunk's rows of the scaled features: row `q` of the chunk is row `512 (t % 16) + q`. -/
theorem chunkRows_apply (t : Fin cfg1.N) (x1 : Vec F S8192x512 .bf16) (q f : Fin 512) (k : S8192x512.Idx)
    (hk0 : (k 0).val = 512 * (t.val % 16) + q.val) (hk1 : (k 1).val = f.val) :
    chunkRows (grid1.coords t) x1 (ix2 q f) = x1 k := by
  obtain ⟨-, -, -, -, -, -, -, -, -, e⟩ := idx_facts t
  show x1 _ = x1 k
  congr 1
  funext a
  apply Fin.ext
  match a with
  | ⟨0, _⟩ => show k1_off2 (grid1.coords t) 0 + 1 * q.val = (k 0).val; rw [e, hk0]; show 512 * (t.val % 16) + 1 * q.val = _; omega
  | ⟨1, _⟩ => show k1_off2 (grid1.coords t) 1 + 1 * f.val = (k 1).val; rw [e, hk1]; show 0 + 1 * f.val = _; omega

/-- The row block's own rows of the scaled features: row `r` of the block is row `1024 (t / 16) + r`. -/
theorem ownRows_apply (t : Fin cfg1.N) (h : k1_cond1 (grid1.coords t) = 1#1) (x1 : Vec F S8192x512 .bf16) (r : Fin 1024) (f : Fin 512)
    (k : S8192x512.Idx) (hk0 : (k 0).val = 1024 * (t.val / 16) + r.val) (hk1 : (k 1).val = f.val) :
    ownRows (grid1.coords t) h x1 (ix2 r f) = x1 k := by
  obtain ⟨-, -, -, -, -, -, -, -, e, -⟩ := idx_facts t
  show x1 _ = x1 k
  congr 1
  funext a
  apply Fin.ext
  match a with
  | ⟨0, _⟩ => show k1_off1 (grid1.coords t) 0 + 1 * r.val = (k 0).val; rw [e, hk0]; show 1024 * (t.val / 16) + 1 * r.val = _; omega
  | ⟨1, _⟩ => show k1_off1 (grid1.coords t) 1 + 1 * f.val = (k 1).val; rw [e, hk1]; show 0 + 1 * f.val = _; omega

end Cert.KernelIdeal.AggregateValue

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.LibAccChunks.lean ====
/-
  An accumulator that adds one chunk's sum per step.

  Starting from a value z and adding, at step n, the sum of the d terms at positions n · d, …, n · d + d − 1, the
  accumulator after N steps holds z plus the sum of all N · d terms. Only commutativity and associativity of addition
  are used, so the statements hold on the extended reals with no finiteness assumption. Stated for terms indexed by the
  naturals, for terms indexed below N · d, and for sixteen chunks of 512 terms indexed below 8192.
-/
import Mathlib.Algebra.BigOperators.Fin
import Mathlib.Algebra.BigOperators.Intervals
import proofs.«165094_j38611755991575_2_alg».proof.Proof.LibBlockSum
import proofs.«165094_j38611755991575_2_alg».proof.Proof.LibRealSums

namespace Cert.Lib.AccChunks

open Finset Cert.Lib.BlockSum

/-- An accumulator that starts at `z` and adds the term `B n` at each step `n < N` holds, after `N` steps, `z` plus
    the sum of the terms. -/
theorem acc_steps {M : Type*} [AddCommMonoid M] (N : ℕ) (B : ℕ → M) (z : M) (acc : ℕ → M) (h0 : acc 0 = z)
    (hs : ∀ n, n < N → acc (n + 1) = acc n + B n) : acc N = z + ∑ n ∈ range N, B n := by
  have h : ∀ n, n ≤ N → acc n = z + ∑ j ∈ range n, B j := by
    intro n
    induction n with
    | zero => intro _; rw [h0, sum_range_zero, add_zero]
    | succ n ih =>
      intro hn
      rw [hs n (Nat.lt_of_succ_le hn), ih (Nat.le_of_succ_le hn), sum_range_succ, add_assoc]
  exact h N le_rfl

/-- Terms indexed by the naturals: after `N` steps, each adding the `d` terms at positions `n * d + q`, the
    accumulator holds `z` plus the sum of the first `N * d` terms. -/
theorem acc_chunks {M : Type*} [AddCommMonoid M] (N d : ℕ) (f : ℕ → M) (z : M) (acc : ℕ → M) (h0 : acc 0 = z)
    (hs : ∀ n, n < N → acc (n + 1) = acc n + ∑ q : Fin d, f (n * d + q.val)) :
    acc N = z + ∑ k : Fin (N * d), f k.val := by
  rw [acc_steps N (fun n => ∑ q : Fin d, f (n * d + q.val)) z acc h0 hs,
    Cert.Lib.RealSums.sum_fin_eq_range (N * d) f, Cert.Lib.RealSums.sum_range_mul N d f]
  exact congrArg (z + ·) (sum_congr rfl fun n _ => Cert.Lib.RealSums.sum_fin_eq_range d (fun i => f (n * d + i)))

/-- Terms indexed below `N * d`: term `q` of chunk `n` is the term at position `n * d + q`. -/
theorem acc_chunks_fin {M : Type*} [AddCommMonoid M] (N d : ℕ) (g : Fin (N * d) → M) (z : M) (acc : ℕ → M)
    (h0 : acc 0 = z)
    (hs : ∀ (n : ℕ) (hn : n < N), acc (n + 1) = acc n + ∑ q : Fin d, g (pos N d ⟨n, hn⟩ q)) :
    acc N = z + ∑ k : Fin (N * d), g k := by
  have hf : ∀ k : Fin (N * d), (fun k : ℕ => if h : k < N * d then g ⟨k, h⟩ else 0) k.val = g k :=
    fun k => dif_pos k.isLt
  rw [acc_chunks N d (fun k => if h : k < N * d then g ⟨k, h⟩ else 0) z acc h0 (fun n hn => by
    rw [hs n hn]
    exact congrArg (acc n + ·) (sum_congr rfl fun q _ => (hf (pos N d ⟨n, hn⟩ q)).symm))]
  exact congrArg (z + ·) (sum_congr rfl fun k _ => hf k)

/-- Sixteen chunks of 512 terms indexed below 8192. -/
theorem acc_sixteen_chunks {M : Type*} [AddCommMonoid M] (g : Fin 8192 → M) (z : M) (acc : ℕ → M) (h0 : acc 0 = z)
    (hs : ∀ (n : ℕ) (hn : n < 16), acc (n + 1)
      = acc n + ∑ q : Fin 512, g ⟨n * 512 + q.val, by have := q.isLt; omega⟩) :
    acc 16 = z + ∑ k : Fin 8192, g k :=
  acc_chunks_fin 16 512 g z acc h0 hs

/-- The same with the sixteen chunk sums written as one sum over the chunks. -/
theorem sum_sixteen_chunks {M : Type*} [AddCommMonoid M] (g : Fin 8192 → M) :
    ∑ b : Fin 16, ∑ q : Fin 512, g ⟨b.val * 512 + q.val, by have := b.isLt; have := q.isLt; omega⟩
      = ∑ k : Fin 8192, g k :=
  (sum_blocks 16 512 g).symm

end Cert.Lib.AccChunks
-- ==== Proof.Ideal.AggregateRow.lean ====
import proofs.«165094_j38611755991575_2_alg».proof.Proof.Ideal.AggregatePass
import Idealize.ShloMosaic.Lib.Pipeline.Value
import Idealize.ShloMosaic.Lib.ValueIdx
import Idealize.ShloMosaic.Lib.Tactic
import proofs.«165094_j38611755991575_2_alg».proof.Proof.Ideal.AggregateBlocks
import proofs.«165094_j38611755991575_2_alg».proof.Proof.LayerPayloads
import proofs.«165094_j38611755991575_2_alg».proof.Proof.LibAccChunks

/-!
# The aggregation pass: a row block's result, entry by entry

Within row block `i` the sixteen points `16 i, …, 16 i + 15` carry one accumulator. At entry `(r, f)`, with `R` the
node `1024 i + r`: the first point seeds it with the node's own scaled entry `s R f` and adds the first 512 terms
`adj R k · s k f`; each later point adds the next 512 terms; so after the last point it holds
`s R f + ∑ k, adj R k · s k f`, the sum over all 8192 nodes (addition on the extended reals is commutative and
associative, so the chunks regroup with no finiteness assumption). The last point then scales the row by the degree
column's entry at `R`, multiplies by the weights and keeps the larger of each entry and zero: the result block at
entry `(r, o)` is the layer's result at node `R`, output feature `o`.
-/

set_option maxRecDepth 16384

noncomputable section

namespace Cert.KernelIdeal.AggregateValue

open Cert.KernelIdeal Cert.KernelIdeal.Gen Cert.KernelIdeal.AggregatePass
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the buffers' contents when the pass is entered, at the ideal values
variable (V : (c : Dev nD) → (b : Ref sig .tc) → Buf (Elt Ideal) ((c : Thread nD τ).loc b))

/-- The four arrays the pass reads, as it finds them: the adjacency matrix, the scaled features, the degree column and
    the weights. -/
abbrev adjOf (c : Dev nD) : S8192x8192.Idx → EReal := V c main_arg1
abbrev scaledOf (c : Dev nD) : S8192x512.Idx → EReal := V c main_v0_1
abbrev colOf (c : Dev nD) : S8192x1.Idx → EReal := V c main_v0_0
abbrev weightOf (c : Dev nD) : S512x512.Idx → EReal := V c main_arg2

/-- One term of row `R` of the adjacency matrix against column `f` of the scaled features. -/
def term (c : Dev nD) (R : Fin 8192) (f : Fin 512) (k : Fin 8192) : EReal :=
  adjOf V c (ix2 R k) * scaledOf V c (ix2 k f)

/-- The layer's result at node `R`, output feature `o`: the node's own scaled row plus the adjacency-weighted sum of all
    scaled rows, scaled by the node's entry of the degree column, times the weights, and the larger of that and zero. -/
def layerAt (c : Dev nD) (R : Fin 8192) (o : Fin 512) : EReal :=
  max (∑ f : Fin 512, ((scaledOf V c (ix2 R f) + ∑ k : Fin 8192, adjOf V c (ix2 R k) * scaledOf V c (ix2 k f))
    * colOf V c (ix2 R (0 : Fin 1))) * weightOf V c (ix2 f o)) 0

/-- The same as an array. -/
def layerRow (c : Dev nD) : S8192x512.Idx → EReal := fun j => layerAt V c (j 0) (j 1)

/-- One accumulation step at a point, entry by entry: what the accumulator held plus the chunk's 512 terms of the row. -/
theorem step_at (c : Dev nD) (t : Fin cfg1.N) (n : ℕ) (hn : n < 16) (htn : t.val % 16 = n) (r : Fin 1024) (f : Fin 512)
    (R : Fin 8192) (hR : R.val = 1024 * (t.val / 16) + r.val) (xs : Vec Ideal S1024x512 .f32) :
    k1_pay2 (F := Ideal) (blockAt V c 0 t) (chunkRows (grid1.coords t) (blockAt V c 1 t)) xs (ix2 r f)
      = xs (ix2 r f) + ∑ q : Fin 512, term V c R f ⟨n * 512 + q.val, by have := q.isLt; omega⟩ := by
  refine (LayerPayloads.step_apply _ _ _ r f).trans (congrArg (xs (ix2 r f) + ·) (Finset.sum_congr rfl fun q _ => ?_))
  unfold term
  refine congrArg₂ (· * ·) ?_ ?_
  · exact adjBlock_apply V c t r q (ix2 R ⟨n * 512 + q.val, by have := q.isLt; omega⟩) hR (by show n * 512 + q.val = _; omega)
  · exact (chunkRows_apply t (blockAt V c 1 t) q f (ix2 ⟨n * 512 + q.val, by have := q.isLt; omega⟩ f)
      (by show n * 512 + q.val = _; omega) rfl).trans (scaledBlock_apply V c t _ f)

/-- The accumulator after position `n`, extended by a placeholder past the last point, so that positions can be
    computed with. -/
def accTot (c : Dev nD) (n : ℕ) : Vec Ideal S1024x512 .f32 :=
  if h : n < cfg1.N then accAt V c n h else fun _ => 0

theorem accTot_eq (c : Dev nD) (n : ℕ) (h : n < cfg1.N) : accTot V c n = accAt V c n h := dif_pos h

/-- THE ACCUMULATOR AFTER A ROW BLOCK'S LAST CHUNK: at entry `(r, f)` the row block's own scaled entry plus the whole
    row of the adjacency matrix against column `f` of the scaled features — sixteen chunks of 512 terms, one per point. -/
theorem accAt_closed (c : Dev nD) (t : Fin cfg1.N) (h15 : t.val % 16 = 15) (r : Fin 1024) (f : Fin 512)
    (R : Fin 8192) (hR : R.val = 1024 * (t.val / 16) + r.val) :
    accAt V c t.val t.isLt (ix2 r f) = scaledOf V c (ix2 R f) + ∑ k : Fin 8192, term V c R f k := by
  have hN : cfg1.N = 128 := N_1
  have htN := t.isLt
  -- the accumulator's entry after the row block's first n chunks
  have key := Cert.Lib.AccChunks.acc_sixteen_chunks (term V c R f) (scaledOf V c (ix2 R f))
    (fun n => if n = 0 then scaledOf V c (ix2 R f) else accTot V c (16 * (t.val / 16) + n - 1) (ix2 r f)) (if_pos rfl)
    (fun n hn => by
      have hlt : 16 * (t.val / 16) + n < cfg1.N := by omega
      rw [if_neg (Nat.succ_ne_zero n), show 16 * (t.val / 16) + (n + 1) - 1 = 16 * (t.val / 16) + n from by omega,
        accTot_eq V c _ hlt]
      have hdiv : (⟨16 * (t.val / 16) + n, hlt⟩ : Fin cfg1.N).val / 16 = t.val / 16 := by show (16 * (t.val / 16) + n) / 16 = _; omega
      have hmod : (⟨16 * (t.val / 16) + n, hlt⟩ : Fin cfg1.N).val % 16 = n := by show (16 * (t.val / 16) + n) % 16 = _; omega
      have hR' : R.val = 1024 * ((⟨16 * (t.val / 16) + n, hlt⟩ : Fin cfg1.N).val / 16) + r.val := by rw [hdiv]; exact hR
      by_cases h0 : n = 0
      · subst h0
        rw [if_pos rfl]
        have hm0 : (⟨16 * (t.val / 16) + 0, hlt⟩ : Fin cfg1.N).val % 16 = 0 := hmod
        refine (congrFun (accAt_first V c ⟨16 * (t.val / 16) + 0, hlt⟩ hm0) (ix2 r f)).trans ?_
        rw [accFirst_eq]
        refine (step_at V c ⟨16 * (t.val / 16) + 0, hlt⟩ 0 hn hmod r f R hR' _).trans (congrArg (· + _) ?_)
        refine (LayerPayloads.seed_apply _ _).trans ?_
        exact (ownRows_apply ⟨16 * (t.val / 16) + 0, hlt⟩ _ (blockAt V c 1 ⟨16 * (t.val / 16) + 0, hlt⟩) r f (ix2 R f) hR' rfl).trans
          (scaledBlock_apply V c _ R f)
      · rw [if_neg h0]
        have hm0 : ¬ (⟨16 * (t.val / 16) + n, hlt⟩ : Fin cfg1.N).val % 16 = 0 := by rw [hmod]; exact h0
        have hprev : 16 * (t.val / 16) + n - 1 < cfg1.N := by omega
        by_cases hl : n = 15
        · have hm15 : (⟨16 * (t.val / 16) + n, hlt⟩ : Fin cfg1.N).val % 16 = 15 := by rw [hmod]; exact hl
          refine (congrFun (accAt_last V c ⟨16 * (t.val / 16) + n, hlt⟩ hm0 hm15) (ix2 r f)).trans ?_
          rw [accLast_eq]
          refine (step_at V c ⟨16 * (t.val / 16) + n, hlt⟩ n hn hmod r f R hR' _).trans (congrArg (· + _) ?_)
          exact (congrFun (accTot_eq V c _ hprev) (ix2 r f)).symm
        · have hm15 : ¬ (⟨16 * (t.val / 16) + n, hlt⟩ : Fin cfg1.N).val % 16 = 15 := by rw [hmod]; exact hl
          refine (congrFun (accAt_middle V c ⟨16 * (t.val / 16) + n, hlt⟩ hm0 hm15) (ix2 r f)).trans ?_
          rw [accMiddle_eq]
          refine (step_at V c ⟨16 * (t.val / 16) + n, hlt⟩ n hn hmod r f R hR' _).trans (congrArg (· + _) ?_)
          exact (congrFun (accTot_eq V c _ hprev) (ix2 r f)).symm)
  rw [← key]
  show _ = accTot V c (16 * (t.val / 16) + 16 - 1) (ix2 r f)
  rw [show 16 * (t.val / 16) + 16 - 1 = t.val from by omega, accTot_eq V c t.val t.isLt]

/-- THE RESULT BLOCK at a point of chunk 15, entry by entry: the layer's result at the entry's node and output feature. -/
theorem resAt_eq (c : Dev nD) (t : Fin cfg1.N) (h15 : t.val % 16 = 15) (r : Fin 1024) (o : Fin 512)
    (hb : 1024 * (t.val / 16) + r.val < 8192) :
    AggregatePass.resAt (F := Ideal) V c t (ix2 r o) = layerRow V c (ix2 ⟨1024 * (t.val / 16) + r.val, hb⟩ o) := by
  have h0 : ¬ t.val % 16 = 0 := by omega
  rw [resAt_last V c t h0 h15, resLast_eq, ← accLast_eq c t (not_seeds_of_ne t h0) ((stores_iff t).mpr h15) (blockAt V c 0 t) (blockAt V c 1 t)
    (blockAt V c 2 t) (blockAt V c 3 t), ← accAt_last V c t h0 h15]
  refine (LayerPayloads.output_apply _ _ _ r o).trans ?_
  show _ = layerAt V c ⟨1024 * (t.val / 16) + r.val, hb⟩ o
  unfold layerAt
  refine congrArg (max · 0) (Finset.sum_congr rfl fun f _ => ?_)
  refine congrArg₂ (· * ·) (congrArg₂ (· * ·) ?_ ?_) (weightBlock_apply V c t f o)
  · exact accAt_closed V c t h15 r f ⟨1024 * (t.val / 16) + r.val, hb⟩ rfl
  · exact colBlock_apply V c t r (ix2 ⟨1024 * (t.val / 16) + r.val, hb⟩ (0 : Fin 1)) rfl

end Cert.KernelIdeal.AggregateValue

end
-- ==== Proof.Ideal.ResultArray.lean ====
/-
  The result array after the aggregation pass, from its blocks.

  The pass walks 8 row blocks of 1024 rows, each in 16 chunks; the result's block for row block i is written back once,
  after the last chunk of i. If what is written there is, entry by entry, rows 1024·i … 1024·i + 1023 of one function of
  the whole array's index, then, the 8 blocks tiling the array, the array ends holding that function.
-/
import proofs.«165094_j38611755991575_2_alg».proof.Proof.Ideal.AggregatePass
import Idealize.ShloMosaic.Lib.Pipeline.Value
import Idealize.ShloMosaic.Lib.ValueIdx

noncomputable section

namespace Cert.KernelIdeal.ResultArray

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The result's window moves with the row block alone: block `t / 16` on the rows, block 0 on the columns. -/
theorem idx_facts : ∀ t : Fin cfg1.N,
    win1_4.index t (0 : Fin 2) = t.val / 16 ∧ win1_4.index t (1 : Fin 2) = 0 :=
  (by decide +kernel : ∀ t : Fin grid1.N, _)

/-- Row `r` of the row block of grid point `t`, as a row of the array. -/
def rowOf (t : Fin cfg1.N) (r : Fin 1024) : Fin 8192 :=
  ⟨1024 * (t.val / 16) + r.val, by have := t.isLt; have hN : cfg1.N = 128 := N_1; have := r.isLt; omega⟩

theorem rowOf_val (t : Fin cfg1.N) (r : Fin 1024) : (rowOf t r).val = 1024 * (t.val / 16) + r.val := rfl

/-- What a writing point writes back is its block of `G`, when the result block there is rows of `G`. -/
theorem flushed_res (c : Dev nD) (G : S8192x512.Idx → EReal)
    (hres : ∀ t : Fin cfg1.N, t.val % 16 = 15 → ∀ (r : Fin 1024) (o : Fin 512),
      AggregatePass.resAt (F := Ideal) V c t (ix2 r o) = G (ix2 (rowOf t r) o))
    (t : Fin cfg1.N) (hf : (cfg1.win 4).flush t = true) :
    (AggregatePass.dat (F := Ideal) V c).flushed 4 t = ((cfg1.win 4).blk t).view.read (Elt Ideal) G := by
  have h15 : t.val % 16 = 15 := (flush1_4 t).mp hf
  show (cfg1.win 4).cut (grid1.coords t) ((AggregatePass.dat (F := Ideal) V c).after 4 t) = _
  rw [AggregatePass.after4]
  obtain ⟨e0, e1⟩ := idx_facts t
  funext j
  have hj0 : (j 0).val < 1024 := (j 0).isLt
  have hj1 : (j 1).val < 512 := (j 1).isLt
  have hidx : (cfg1.win 4).xinj (grid1.coords t) j = ix2 (⟨(j 0).val, hj0⟩ : Fin 1024) (⟨(j 1).val, hj1⟩ : Fin 512) :=
    funext fun a => Fin.ext (by
      match a with
      | ⟨0, _⟩ => rfl
      | ⟨1, _⟩ => rfl)
  show AggregatePass.resAt (F := Ideal) V c t ((cfg1.win 4).xinj (grid1.coords t) j) = G (((cfg1.win 4).blk t).view.emb j)
  rw [hidx, hres t h15]
  congr 1; funext a; apply Fin.ext
  match a with
  | ⟨0, _⟩ => show 1024 * (t.val / 16) + (j 0).val = win1_4.index t (0 : Fin 2) * 1024 + 1 * (j 0).val; omega
  | ⟨1, _⟩ => show (j 1).val = win1_4.index t (1 : Fin 2) * 512 + 1 * (j 1).val; omega

/-- An index of the result array is in point `t`'s block iff each coordinate is in the block's range on its axis. -/
theorem mem_blk (t : Fin cfg1.N) (i : S8192x512.Idx) :
    i ∈ ((cfg1.win 4).blk t).view.set ↔ ∀ a : Fin 2, win1_4.index t a * S1024x512.size a ≤ (i a).val
      ∧ (i a).val < win1_4.index t a * S1024x512.size a + S1024x512.size a := by
  show i ∈ ((View.whole main_v1).slice (win1_4.rect t)).set ↔ _
  rw [View.set_slice_whole, Rect.mem_set_unit]
  exact Iff.rfl

/-- Row `R` is written by the point after the last chunk of its row block, `16 * (R / 1024) + 15`. -/
theorem cover (i : S8192x512.Idx) :
    ∃ t : Fin cfg1.N, (cfg1.win 4).flush t = true ∧ i ∈ ((cfg1.win 4).blk t).view.set := by
  have hi0 : (i 0).val < 8192 := (i 0).isLt
  have hi1 : (i 1).val < 512 := (i 1).isLt
  have hN : cfg1.N = 128 := N_1
  obtain ⟨t, ht⟩ : ∃ t : Fin cfg1.N, t.val = 16 * ((i 0).val / 1024) + 15 := ⟨⟨16 * ((i 0).val / 1024) + 15, by omega⟩, rfl⟩
  obtain ⟨e0, e1⟩ := idx_facts t
  refine ⟨t, (flush1_4 t).mpr (by omega), ?_⟩
  rw [mem_blk]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 512 ≤ (i 1).val ∧ (i 1).val < win1_4.index t (1 : Fin 2) * 512 + 512
    omega

/-- THE RESULT ARRAY after the pass: any function `G` of the array's index whose rows the result block holds at every
    writing point. -/
theorem result_final (c : Dev nD) (G : S8192x512.Idx → EReal)
    (hres : ∀ t : Fin cfg1.N, t.val % 16 = 15 → ∀ (r : Fin 1024) (o : Fin 512),
      AggregatePass.resAt (F := Ideal) V c t (ix2 r o) = G (ix2 (rowOf t r) o)) :
    (AggregatePass.dat (F := Ideal) V c).arrAt 4 cfg1.N = G :=
  (AggregatePass.dat (F := Ideal) V c).arrAt_eq_of_cover 4 G (flushed_res V c G hres) cover

/-- The same at an entry. -/
theorem result_final_apply (c : Dev nD) (G : S8192x512.Idx → EReal)
    (hres : ∀ t : Fin cfg1.N, t.val % 16 = 15 → ∀ (r : Fin 1024) (o : Fin 512),
      AggregatePass.resAt (F := Ideal) V c t (ix2 r o) = G (ix2 (rowOf t r) o)) (R : Fin 8192) (o : Fin 512) :
    (AggregatePass.dat (F := Ideal) V c).arrAt 4 cfg1.N (ix2 R o) = G (ix2 R o) :=
  congrFun (result_final V c G hres) (ix2 R o)

end Cert.KernelIdeal.ResultArray

end
-- ==== Proof.Ideal.LayerValue.lean ====
import proofs.«165094_j38611755991575_2_alg».proof.Proof.Ideal.LayerRun
import proofs.«165094_j38611755991575_2_alg».proof.Proof.Ideal.DegreeValue
import proofs.«165094_j38611755991575_2_alg».proof.Proof.Ideal.AggregateRow
import proofs.«165094_j38611755991575_2_alg».proof.Proof.Ideal.ResultArray
import proofs.«165094_j38611755991575_2_alg».proof.Proof.Spec

/-!
# The kernel's result is the layer's output of the arguments

When the aggregation pass is entered the adjacency matrix and the weights are as launched, the degree column holds the
reciprocal square roots of the degrees and the scaled-feature array holds the features scaled by them: that is what the
degree pass's write-backs leave. The aggregation pass's result array at row `R`, output feature `o` is the positive
part of `∑ f, ((s R f + ∑ k, adj R k · s k f) · col R) · w f o`; with those four arrays this is the layer's output.
No hypothesis on the arguments is needed: the layer is stated in this arrangement.
-/

noncomputable section

namespace Cert.KernelIdeal.LayerValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Between the passes the adjacency matrix is as launched. -/
theorem adj_between (c : Dev nD) :
    AggregateValue.adjOf (LayerRun.V1 m) c = m ((c.tc : Thread nD τ).loc main_arg1) :=
  LayerRun.W1_main_arg1 m c

/-- Between the passes the weights are as launched. -/
theorem weight_between (c : Dev nD) :
    AggregateValue.weightOf (LayerRun.V1 m) c = m ((c.tc : Thread nD τ).loc main_arg2) :=
  LayerRun.W1_main_arg2 m c

/-- Between the passes the scaled-feature array is the features scaled by the reciprocal square roots of the degrees. -/
theorem scaled_between (c : Dev nD) (k : Fin 8192) (f : Fin 512) :
    AggregateValue.scaledOf (LayerRun.V1 m) c (ix2 k f)
      = GcnLayer.scaled (m ((c.tc : Thread nD τ).loc main_arg0)) (m ((c.tc : Thread nD τ).loc main_arg1)) k f :=
  (congrFun (LayerRun.W1_arr m c 3) (ix2 k f)).trans (DegreeValue.scaled_final_apply (LayerRun.V0 m) c k f)

/-- Between the passes the degree column is the reciprocal square roots of the degrees. -/
theorem col_between (c : Dev nD) (k : Fin 8192) :
    AggregateValue.colOf (LayerRun.V1 m) c (ix2 k (0 : Fin 1))
      = GcnLayer.rdeg (m ((c.tc : Thread nD τ).loc main_arg1)) k :=
  (congrFun (LayerRun.W1_arr m c 2) (ix2 k (0 : Fin 1))).trans (DegreeValue.col_final_apply (LayerRun.V0 m) c k)

/-- The aggregation pass's row value, over the arrays it finds, is the layer's output. -/
theorem layerAt_eq (c : Dev nD) (R : Fin 8192) (o : Fin 512) :
    AggregateValue.layerAt (LayerRun.V1 m) c R o
      = GcnLayer.outAt (m ((c.tc : Thread nD τ).loc main_arg0)) (m ((c.tc : Thread nD τ).loc main_arg1))
          (m ((c.tc : Thread nD τ).loc main_arg2)) R o := by
  unfold AggregateValue.layerAt GcnLayer.outAt GcnLayer.agg
  refine congrArg (fun s => max s 0) (Finset.sum_congr rfl fun f _ => ?_)
  rw [scaled_between m c R f, col_between m c R, weight_between m c, adj_between m c]
  refine congrArg (fun s => (GcnLayer.scaled (m ((c.tc : Thread nD τ).loc main_arg0)) (m ((c.tc : Thread nD τ).loc main_arg1)) R f + s)
      * GcnLayer.rdeg (m ((c.tc : Thread nD τ).loc main_arg1)) R * m ((c.tc : Thread nD τ).loc main_arg2) (ix2 f o))
    (Finset.sum_congr rfl fun k _ => ?_)
  rw [scaled_between m c k f]

/-- The result array after the run is the layer's output of the argument arrays. -/
theorem result_eq (c : Dev nD) :
    (AggregatePass.dat (F := Ideal) (LayerRun.V1 m) c).arrAt 4 cfg1.N
      = GcnLayer.out (m ((c.tc : Thread nD τ).loc main_arg0)) (m ((c.tc : Thread nD τ).loc main_arg1))
          (m ((c.tc : Thread nD τ).loc main_arg2)) := by
  rw [ResultArray.result_final (LayerRun.V1 m) c (AggregateValue.layerRow (LayerRun.V1 m) c)
    (fun t h15 r o => AggregateValue.resAt_eq (LayerRun.V1 m) c t h15 r o (ResultArray.rowOf t r).isLt)]
  funext j
  obtain ⟨R, o, rfl⟩ : ∃ (R : Fin 8192) (o : Fin 512), j = ix2 R o := ⟨j 0, j 1, eq_ix2 j⟩
  exact layerAt_eq m c R o

end Cert.KernelIdeal.LayerValue

end
-- ==== Proof.SelfLoops.lean ====
/-
  The identity matrix and the row sums of the adjacency matrix with self loops, as the array operations spell them.

  The identity matrix is written as a comparison: the row number (plus a zero word) against the column number, as 32-bit
  words, the one-bit answer converted to a float. For rows and columns below 8192 the two words are equal exactly when
  the numbers are, so the entry is 1 on the diagonal and 0 off it. The sum of an 8192 × 8192 array along its second
  axis, read at row i, is the initial value plus the sum of row i.
-/
import Idealize.ShloMosaic.PureOps.Ideal
import Idealize.ShloMosaic.PureOps.Ideal.Laws
import Idealize.ShloMosaic.Lib.ValueIdx
import Idealize.ShloMosaic.Lib.Pipeline.Value
import proofs.«165094_j38611755991575_2_alg».proof.Proof.Spec

noncomputable section

namespace GcnLayer

open Idealize.ShloMosaic Idealize.ShloMosaic.ValueIdx

/-- The scalar shape and the shape of a vector with one entry per node. -/
abbrev S0 : Shape := ⟨0, ![]⟩
abbrev SV : Shape := ⟨1, ![8192]⟩

/-- The identity matrix's entry: a node's self loop. -/
def selfLoop (i k : Fin 8192) : EReal := if i = k then 1 else 0

/-- The adjacency matrix with self loops, entry by entry. -/
def adjHat (adj : FVec Ideal SA .f32) (i k : Fin 8192) : EReal := adj (ix2 i k) + selfLoop i k

/-- Row number against column number as 32-bit words, the answer converted to a float: the identity's entry. -/
theorem eye_word (i k : Fin 8192) :
    (FloatOps.uitofp (F := Ideal) .f32 (IntOp.cmpi .eq (IntOp.addi (BitVec.ofNat 32 i.val) 0#32) (BitVec.ofNat 32 k.val)) : EReal)
      = selfLoop i k := by
  unfold selfLoop
  have hw : (BitVec.ofNat 32 i.val = BitVec.ofNat 32 k.val) ↔ i = k := by
    constructor
    · intro h
      have := congrArg BitVec.toNat h
      simp only [BitVec.toNat_ofNat] at this
      have hi := i.isLt; have hk := k.isLt
      exact Fin.ext (by omega)
    · rintro rfl; rfl
  show (((IntOp.cmpi .eq (IntOp.addi (BitVec.ofNat 32 i.val) 0#32) (BitVec.ofNat 32 k.val)).toNat : ℝ) : EReal) = _
  unfold IntOp.cmpi IntOp.addi
  rw [BitVec.add_zero]
  by_cases h : i = k
  · subst h; simp
  · rw [if_neg h]
    have : (BitVec.ofNat 32 i.val == BitVec.ofNat 32 k.val) = false := by
      rw [beq_eq_false_iff_ne]; exact fun e => h (hw.mp e)
    simp [this]

/-- The identity matrix as the array operations build it, read at row i, column k. -/
theorem eye_apply (hb : S0.BroadcastsInDim SA (![] : Fin 0 → Fin SA.rank)) (i k : Fin 8192) :
    (uitofp .f32 (cmpi .eq (addi (iotaInDim SA 32 0) (broadcastInDim SA ![] hb (constantI S0 32 0#32))) (iotaInDim SA 32 1)) : FVec Ideal SA .f32) (ix2 i k)
      = selfLoop i k := by
  rw [← eye_word]
  show FloatOps.uitofp (F := Ideal) .f32 (IntOp.cmpi .eq (IntOp.addi (BitVec.ofNat 32 i.val) (broadcastInDim SA ![] hb (constantI S0 32 0#32) (ix2 i k))) (BitVec.ofNat 32 k.val)) = _
  rw [broadcastInDim_apply _ hb (constantI S0 32 0#32) (ix2 i k) ix0 (fun a => a.elim0)]
  rfl

/-- The sum along the second axis, read at row i: the initial value plus the sum of the row. -/
theorem rowSum_apply (y : FVec Ideal SA .f32) (c : FVec Ideal S0 .f32) (h' : SA.ReducesTo [1] SV) (hu : 0 < S0.numel) (i : Fin 8192) :
    Host.reduceAdd (F := Ideal) y c h' hu (ix1 i) = c ix0 + ∑ k : Fin 8192, y (ix2 i k) := by
  simp only [Host.reduceAdd, Ideal.hostReduceAdd_def]
  rw [Ideal.hostReduceAdd_single h' (by decide)]
  rw [eq_ix0 (Shape.Idx.first hu)]
  refine congrArg (_ + ·) (Finset.sum_congr rfl fun k _ => ?_)
  exact congrArg y (funext fun a => Fin.ext (by match a with | ⟨0, _⟩ => rfl | ⟨1, _⟩ => rfl))

end GcnLayer

end
-- ==== Proof.ReferenceEntry.lean ====
/-
  The reference, read at one entry.

  The reference adds the identity to the adjacency matrix, sums each row to the degree, raises the degree to the power
  -1/2, scales the matrix by that on the left and on the right, multiplies by the features and then by the weights, and
  takes the positive part. Read at node i and output feature o, with d i the degree of node i to the power -1/2:
      max (∑ f (∑ k (d i · (adj i k + [i = k]) · d k) · x k f) · w f o) 0.
-/
import proofs.«165094_j38611755991575_2_alg».proof.Proof.Gen.ReferenceIdeal.Read
import proofs.«165094_j38611755991575_2_alg».proof.Proof.SelfLoops
import proofs.«165094_j38611755991575_2_alg».proof.Proof.LibRealScalars

noncomputable section

namespace GcnLayer

open Idealize.ShloMosaic Idealize.ShloMosaic.ValueIdx Cert.Lib Cert.ReferenceIdeal Cert.ReferenceIdeal.Read

variable [Cert.ReferenceIdeal.Facts]

/-- The reference's scaling of node i: its degree, the row sum with the self loop, to the power -1/2. -/
def refScale (adj : FVec Ideal SA .f32) (i : Fin 8192) : EReal :=
  Ideal.pow (∑ k : Fin 8192, adjHat adj i k) ((-(1 / 2) : ℝ) : EReal)

/-- The adjacency matrix plus the identity, at row i, column k. -/
theorem ref_adjHat (adj : FVec Ideal SA .f32) (i k : Fin 8192) : val_main_v6 (F := Ideal) adj (ix2 i k) = adjHat adj i k := by
  rw [val_main_v6_apply]
  exact congrArg (adj (ix2 i k) + ·) (eye_apply Facts₀.bcast_S_S8192x8192 i k)

/-- The degree of node i. -/
theorem ref_degree (adj : FVec Ideal SA .f32) (i : Fin 8192) :
    val_main_v7 (F := Ideal) adj (ix1 i) = ∑ k : Fin 8192, adjHat adj i k := by
  unfold val_main_v7
  refine (rowSum_apply _ _ _ _ i).trans ?_
  rw [show (val_main_cst (F := Ideal) ix0 : EReal) = 0 from Ideal.ofBits_zero_f32, zero_add]
  exact Finset.sum_congr rfl fun k _ => ref_adjHat adj i k

/-- The degree of node i to the power -1/2. -/
theorem ref_scale (adj : FVec Ideal SA .f32) (i : Fin 8192) : val_main_v9 (F := Ideal) adj (ix1 i) = refScale adj i := by
  rw [val_main_v9_apply, ref_degree, val_main_v8_apply, val_main_cst_0_apply]
  show Ideal.pow _ (Ideal.ofBits .f32 0xBF000000#32) = _
  rw [RealScalars.ofBits_neg_half]
  rfl

/-- The normalised adjacency matrix at row i, column k. -/
theorem ref_normalized (adj : FVec Ideal SA .f32) (i k : Fin 8192) :
    val_main_v15 (F := Ideal) adj (ix2 i k) = refScale adj i * adjHat adj i k * refScale adj k := by
  rw [val_main_v15_apply, val_main_v12_apply, val_main_v11_apply, val_main_v10_apply, val_main_v14_apply, val_main_v13_apply, ref_adjHat]
  have e1 : idx_main_v10 (idx_main_v11 (ix2 i k)) = ix1 i := funext fun a => by match a with | ⟨0, _⟩ => rfl
  have e2 : idx_main_v13 (idx_main_v14 (ix2 i k)) = ix1 k := funext fun a => by match a with | ⟨0, _⟩ => rfl
  rw [e1, e2, ref_scale, ref_scale]
  rfl

/-- The normalised adjacency matrix times the features, at node i, feature f. -/
theorem ref_aggregate (x : FVec Ideal SX .f32) (adj : FVec Ideal SA .f32) (i : Fin 8192) (f : Fin 512) :
    val_main_v16 (F := Ideal) x adj (ix2 i f)
      = ∑ k : Fin 8192, (refScale adj i * adjHat adj i k * refScale adj k) * x (ix2 k f) := by
  rw [val_main_v16_apply]
  refine Finset.sum_congr rfl fun k _ => ?_
  have el : lidx_main_v16 (ix2 i f) k = ix2 i k := funext fun a => by match a with | ⟨0, _⟩ => rfl | ⟨1, _⟩ => rfl
  have er : ridx_main_v16 (ix2 i f) k = ix2 k f := funext fun a => by match a with | ⟨0, _⟩ => rfl | ⟨1, _⟩ => rfl
  rw [el, er, ref_normalized]

/-- The reference's result at node i, output feature o. -/
theorem ref_out (x : FVec Ideal SX .f32) (adj : FVec Ideal SA .f32) (w : FVec Ideal SW .f32) (i : Fin 8192) (o : Fin 512) :
    val_main_v18 (F := Ideal) x adj w (ix2 i o)
      = max (∑ f : Fin 512, (∑ k : Fin 8192, (refScale adj i * adjHat adj i k * refScale adj k) * x (ix2 k f)) * w (ix2 f o)) 0 := by
  rw [val_main_v18_apply, val_main_v17_apply, val_main_call0_v0_apply, val_main_call0_cst_apply]
  show max _ (Ideal.ofBits .f32 0x00000000#32) = _
  rw [Ideal.ofBits_zero_f32]
  refine congrArg (max · 0) (Finset.sum_congr rfl fun f _ => ?_)
  have el : lidx_main_v17 (ix2 i o) f = ix2 i f := funext fun a => by match a with | ⟨0, _⟩ => rfl | ⟨1, _⟩ => rfl
  have er : ridx_main_v17 (ix2 i o) f = ix2 f o := funext fun a => by match a with | ⟨0, _⟩ => rfl | ⟨1, _⟩ => rfl
  rw [el, er, ref_aggregate]

end GcnLayer

end
-- ==== Proof.DegreeDomain.lean ====
/-
  What the precondition says, entry by entry.

  The precondition is the conjunction of four tests: every entry of the features, of the adjacency matrix and of the
  weights is below +∞ in absolute value, and every row of the adjacency matrix with self loops sums to more than zero.
  Each test is an array of one-bit answers folded by "and" from 1; the fold is 1 only if every answer is. So every entry
  of the three arrays is a real number, and every row sum — every degree — is positive.
-/
import Idealize.ShloMosaic.Lib.ReduceAll
import proofs.«165094_j38611755991575_2_alg».proof.Pre_finite_inputs
import proofs.«165094_j38611755991575_2_alg».proof.Proof.SelfLoops
import proofs.«165094_j38611755991575_2_alg».proof.Proof.LibRealScalars

noncomputable section

namespace GcnLayer

open Idealize.ShloMosaic Idealize.ShloMosaic.ValueIdx Cert.Lib

/-- The scalar shape has one index. -/
instance subsingleton_scalar_idx : Subsingleton S0.Idx := ⟨fun a b => funext fun d => d.elim0⟩

/-- An array all of whose entries test below +∞ in absolute value has real entries. -/
theorem real_of_all_finite {s : Shape} (v : FVec Ideal s .f32) (hb : S0.BroadcastsInDim s (![] : Fin 0 → Fin s.rank))
    {axes : List (Fin s.rank)} (hr : s.ReducesTo axes S0) (hu : 0 < S0.numel)
    (h : Host.reduce IntOp.andi (cmpf .olt (Host.absf v) (broadcastInDim s ![] hb (constant (F := Ideal) S0 .f32 0x7F800000#32)))
          (constantI S0 1 1#1) hr hu ix0 = 1#1) (j : s.Idx) : ∃ r : ℝ, v j = (r : EReal) := by
  have hj := Host.reduce_andi_all _ _ hr hu ix0 h j
  refine RealScalars.real_of_abs_lt (v j) ?_
  rw [← hj]
  show _ = Ideal.cmp .olt (max (v j) (-(v j))) (broadcastInDim s ![] hb (constant (F := Ideal) S0 .f32 0x7F800000#32) j)
  rw [broadcastInDim_apply _ hb (constant (F := Ideal) S0 .f32 0x7F800000#32) j ix0 (fun a => a.elim0)]
  rfl

/-- A vector all of whose entries test above zero has positive entries. -/
theorem pos_of_all_pos (d : FVec Ideal SV .f32) (hb : S0.BroadcastsInDim SV (![] : Fin 0 → Fin SV.rank))
    {axes : List (Fin SV.rank)} (hr : SV.ReducesTo axes S0) (hu : 0 < S0.numel)
    (h : Host.reduce IntOp.andi (cmpf .ogt d (broadcastInDim SV ![] hb (constant (F := Ideal) S0 .f32 0x00000000#32)))
          (constantI S0 1 1#1) hr hu ix0 = 1#1) (i : Fin 8192) : 0 < d (ix1 i) := by
  have hj := Host.reduce_andi_all _ _ hr hu ix0 h (ix1 i)
  have h1 : Ideal.cmp .ogt (d (ix1 i)) (broadcastInDim SV ![] hb (constant (F := Ideal) S0 .f32 0x00000000#32) (ix1 i)) = 1#1 := hj
  rw [broadcastInDim_apply _ hb (constant (F := Ideal) S0 .f32 0x00000000#32) (ix1 i) ix0 (fun a => a.elim0)] at h1
  have h2 : Ideal.cmp .ogt (d (ix1 i)) (Ideal.ofBits .f32 0x00000000#32) = 1#1 := h1
  rw [Ideal.ofBits_zero_f32] at h2
  exact of_decide_eq_true (RealScalars.of_ofBool_eq_one h2)

/-- The precondition, entry by entry: real features, real adjacency entries, real weights, positive row sums. -/
theorem domain [Cert.Pre_finite_inputs.Facts] (x : FVec Ideal SX .f32) (adj : FVec Ideal SA .f32) (w : FVec Ideal SW .f32)
    (hpre : Cert.Pre_finite_inputs.fn (F := Ideal) x adj w = fun _ => 1#1) :
    (∀ i f, ∃ r : ℝ, x (ix2 i f) = (r : EReal)) ∧ (∀ i k, ∃ r : ℝ, adj (ix2 i k) = (r : EReal))
      ∧ (∀ f o, ∃ r : ℝ, w (ix2 f o) = (r : EReal)) ∧ ∀ i, 0 < ∑ k : Fin 8192, adjHat adj i k := by
  have h0 := congrFun hpre ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i f => real_of_all_finite x _ _ _ h1 (ix2 i f), fun i k => real_of_all_finite adj _ _ _ h2 (ix2 i k),
    fun f o => real_of_all_finite w _ _ _ h3 (ix2 f o), fun i => ?_⟩
  have hp := pos_of_all_pos _ _ _ _ h4 i
  rw [rowSum_apply, show (constant (F := Ideal) S0 .f32 0x00000000#32 ix0 : EReal) = 0 from Ideal.ofBits_zero_f32, zero_add] at hp
  refine lt_of_lt_of_eq hp (Finset.sum_congr rfl fun k _ => ?_)
  rw [addf_apply, eye_apply]
  rfl

end GcnLayer

end
-- ==== Proof.LayerAlgebra.lean ====
/-
  The algebra of symmetric normalisation, one row at a time.

  For one node i, with r the scaling of every node, a the row of the adjacency matrix at i, and y one column of the
  features: scaling the row with self loop on both sides and contracting with the column,
      ∑ k (r i · (a k + [i = k]) · r k) · y k,
  is the node's own scaled entry plus the adjacency-weighted sum of the scaled entries, scaled once more by r i,
      (y i · r i + ∑ k a k · (y k · r k)) · r i.
  First over the reals, then for real numbers read in the extended reals; and the self loops add exactly 1 to a row sum.
-/
import Mathlib.Data.EReal.Operations
import Mathlib.Algebra.BigOperators.Ring.Finset
import proofs.«165094_j38611755991575_2_alg».proof.Proof.LibRealSums

namespace GcnLayer.Algebra

open Finset Cert.Lib

variable {ι : Type*} [Fintype ι] [DecidableEq ι]

/-- Over the reals. -/
theorem normalized_row (i : ι) (a r y : ι → ℝ) :
    ∑ k, (r i * (a k + if i = k then 1 else 0) * r k) * y k = (y i * r i + ∑ k, a k * (y k * r k)) * r i := by
  have h : ∀ k, (r i * (a k + if i = k then 1 else 0) * r k) * y k
      = (a k * (y k * r k)) * r i + (if i = k then y k * r k * r i else 0) := by
    intro k
    by_cases hk : i = k
    · rw [if_pos hk, if_pos hk]; ring
    · rw [if_neg hk, if_neg hk]; ring
  rw [sum_congr rfl fun k _ => h k, sum_add_distrib, ← sum_mul, sum_ite_eq univ i, if_pos (mem_univ i)]
  ring

/-- The self loop as a real number read in the extended reals. -/
theorem selfLoop_coe (i k : ι) : (if i = k then (1 : EReal) else 0) = (((if i = k then (1 : ℝ) else 0 : ℝ)) : EReal) := by
  by_cases hk : i = k
  · rw [if_pos hk, if_pos hk]; rfl
  · rw [if_neg hk, if_neg hk]; rfl

/-- The same identity for real numbers read in the extended reals. -/
theorem normalized_row_coe (i : ι) (a r y : ι → ℝ) :
    ∑ k, ((r i : EReal) * ((a k : EReal) + (if i = k then (1 : EReal) else 0)) * (r k : EReal)) * (y k : EReal)
      = ((y i : EReal) * (r i : EReal) + ∑ k, (a k : EReal) * ((y k : EReal) * (r k : EReal))) * (r i : EReal) := by
  simp only [selfLoop_coe, ← EReal.coe_mul, ← EReal.coe_add, ← RealSums.coe_sum]
  exact congrArg _ (normalized_row i a r y)

/-- The self loops add exactly 1 to a row sum (on the extended reals, where addition is commutative and associative). -/
theorem sum_add_selfLoop (i : ι) (a : ι → EReal) :
    ∑ k, (a k + if i = k then (1 : EReal) else 0) = (∑ k, a k) + 1 := by
  rw [sum_add_distrib, sum_ite_eq univ i, if_pos (mem_univ i)]

end GcnLayer.Algebra
-- ==== Proof.ReferenceLayer.lean ====
/-
  The reference computes the layer.

  Under the precondition every entry is a real number and every degree is a positive real. The reference's degree, the
  row sum of the adjacency matrix with self loops, is the row sum plus one. On a positive real the power -1/2 and the
  reciprocal square root are the same number 1/√·, so the reference's scaling of a node is the layer's. The rest is the
  algebra of one row: scaling the matrix with self loops on both sides and contracting with a column of the features
  is the node's own scaled entry plus the adjacency-weighted sum of the scaled entries, scaled once more.
-/
import proofs.«165094_j38611755991575_2_alg».proof.Proof.ReferenceEntry
import proofs.«165094_j38611755991575_2_alg».proof.Proof.DegreeDomain
import proofs.«165094_j38611755991575_2_alg».proof.Proof.LayerAlgebra

noncomputable section

namespace GcnLayer

open Idealize.ShloMosaic Idealize.ShloMosaic.ValueIdx Cert.Lib

/-- The row sum with self loops is the degree. -/
theorem sum_adjHat (adj : FVec Ideal SA .f32) (i : Fin 8192) : ∑ k : Fin 8192, adjHat adj i k = deg adj i :=
  Algebra.sum_add_selfLoop i fun k => adj (ix2 i k)

theorem reference_eq_out [Cert.ReferenceIdeal.Facts] [Cert.Pre_finite_inputs.Facts]
    (x : FVec Ideal GcnLayer.SX .f32) (adj : FVec Ideal GcnLayer.SA .f32) (w : FVec Ideal GcnLayer.SW .f32)
    (hpre : Cert.Pre_finite_inputs.fn (F := Ideal) x adj w = fun _ => 1#1) :
    Cert.ReferenceIdeal.Read.val_main_v18 (F := Ideal) x adj w = GcnLayer.out x adj w := by
  obtain ⟨hx, ha, -, hpos⟩ := domain x adj w hpre
  choose xr hxr using hx
  choose a haa using ha
  -- every degree is a positive real
  have hdeg : ∀ i, deg adj i = (((∑ k, a i k) + 1 : ℝ) : EReal) := fun i => by
    unfold deg
    simp only [haa]
    rw [← RealSums.coe_sum, EReal.coe_add, EReal.coe_one]
  have hD : ∀ i, 0 < (∑ k, a i k) + 1 := fun i => by
    have h := hpos i
    rw [sum_adjHat, hdeg] at h
    exact_mod_cast h
  -- so both scalings are the real 1/√degree
  have hsc : ∀ i, ∃ r : ℝ, rdeg adj i = (r : EReal) ∧ refScale adj i = (r : EReal) := fun i =>
    ⟨(Real.sqrt ((∑ k, a i k) + 1))⁻¹,
      by unfold rdeg; rw [hdeg, RealScalars.rsqrt_pos _ (hD i)],
      by unfold refScale; rw [sum_adjHat, hdeg, RealScalars.pow_neg_half _ (hD i)]⟩
  choose r hr hs using hsc
  funext j
  obtain ⟨i, o, rfl⟩ : ∃ (i : Fin 8192) (o : Fin 512), j = ix2 i o := ⟨j 0, j 1, eq_ix2 j⟩
  rw [ref_out, out_ix2]
  unfold outAt
  refine congrArg (max · 0) (Finset.sum_congr rfl fun f _ => congrArg (· * w (ix2 f o)) ?_)
  unfold agg scaled adjHat selfLoop
  simp only [hs, hr, hxr, haa]
  exact Algebra.normalized_row_coe i (a i) r fun k => xr k f

end GcnLayer

end
-- ==== Proof.lean ====
/- The proof of `Cert.Claim`.

   The kernel computes one graph-convolution layer in two passes — the reciprocal square roots of the degrees and the
   features scaled by them; then, row block by row block, the scaled rows plus the adjacency-weighted sum of all scaled
   rows accumulated over sixteen column chunks, scaled again, times the weights, positive part — and the reference
   computes the same layer as `max 0 ((D^(-1/2) (adj + I) D^(-1/2) x) w)`. Both are the function `GcnLayer.out` of the
   arguments when every entry is real and every degree is positive, which is what the precondition says.

   The three frames: each kernel program's run (Bits/LayerRun, Ideal/LayerRun: the two passes as segments, each pass's
   body run case by case) and the reference's run, read at the argument arrays. `preserves`: the idealization rewrote
   nothing. `algebraic`: the kernel's result array is `GcnLayer.out` (Ideal/LayerValue, over the passes' block
   values) and so is the reference's (ReferenceLayer). -/
import proofs.«165094_j38611755991575_2_alg».proof.Defs
import proofs.«165094_j38611755991575_2_alg».proof.Proof.Gen.Kernel
import proofs.«165094_j38611755991575_2_alg».proof.Proof.Gen.KernelIdeal
import proofs.«165094_j38611755991575_2_alg».proof.Proof.Gen.ReferenceIdeal
import proofs.«165094_j38611755991575_2_alg».proof.Proof.Gen.ReferenceIdeal.Run
import proofs.«165094_j38611755991575_2_alg».proof.Proof.Gen.ReferenceIdeal.Read
import proofs.«165094_j38611755991575_2_alg».proof.Proof.Gen.Pre_finite_inputs
import proofs.«165094_j38611755991575_2_alg».proof.Proof.Bits.LayerRun
import proofs.«165094_j38611755991575_2_alg».proof.Proof.Ideal.LayerRun
import proofs.«165094_j38611755991575_2_alg».proof.Proof.Ideal.LayerValue
import proofs.«165094_j38611755991575_2_alg».proof.Proof.ReferenceLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ =>
  (θ_run Cert.Kernel.defs _ _).mono (fun _ h c => (h c).2) (Cert.Kernel.LayerRun.run_main (F := Bits) m ρ)

theorem frame_kernelIdeal : Cert.frame_KernelIdeal := fun m ρ _ =>
  (θ_run Cert.KernelIdeal.defs _ _).mono (fun _ h c => (h c).2) (Cert.KernelIdeal.LayerRun.run_main (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's output of the arguments: the kernel's result array by its two passes' values,
    the reference's by its operations read at an index and the row identity between the two arrangements. -/
theorem algebraic : Cert.algebraic_KernelIdeal_ReferenceIdeal := by
  intro m ρ m' ρ' hpre hagree
  refine ⟨fun c => GcnLayer.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.LayerValue.result_eq m c), (h c).2⟩)
      (Cert.KernelIdeal.LayerRun.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v18_eq (F := Ideal) _ _ _).trans ?_
    rw [(hagree c).1, (hagree c).2.1, (hagree c).2.2]
    exact GcnLayer.reference_eq_out _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
